-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S100000x128 .f32) (main_arg2 : FVec F S100000x1 .f32) (main_arg3 : IVec S2x640000 32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S100000x1 : Shape := ⟨2, ![100000, 1]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x256 : Shape := ⟨2, ![100000, 256]⟩
abbrev S640000x256 : Shape := ⟨2, ![640000, 256]⟩
abbrev S2000x128 : Shape := ⟨2, ![2000, 128]⟩
abbrev S2000x1 : Shape := ⟨2, ![2000, 1]⟩
abbrev S1x128 : Shape := ⟨2, ![1, 128]⟩
abbrev S2000 : Shape := ⟨1, ![2000]⟩

abbrev nBuf : Space → Nat
  | .hbm => 94
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x1, .f32⟩
  | .hbm, ⟨3, _⟩ => ⟨S2x640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x640000, .i32⟩
  | .hbm, ⟨21, _⟩ => ⟨S640000, .i32⟩
  | .hbm, ⟨22, _⟩ => ⟨S1x640000, .i32⟩
  | .hbm, ⟨23, _⟩ => ⟨S640000, .i32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x1, .f32⟩
  | .hbm, ⟨38, _⟩ => ⟨S_, .f32⟩
  | .hbm, ⟨39, _⟩ => ⟨S100000x1, .f32⟩
  | .hbm, ⟨40, _⟩ => ⟨S640000x1, .i32⟩
  | .hbm, ⟨41, _⟩ => ⟨S100000x1, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x1, .f32⟩
  | .hbm, ⟨51, _⟩ => ⟨S_, .f32⟩
  | .hbm, ⟨52, _⟩ => ⟨S100000x1, .f32⟩
  | .hbm, ⟨53, _⟩ => ⟨S640000x1, .i32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x1, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x256, .f32⟩
  | .hbm, ⟨78, _⟩ => ⟨S_, .i32⟩
  | .hbm, ⟨79, _⟩ => ⟨S640000, .i32⟩
  | .hbm, ⟨80, _⟩ => ⟨S640000, .i1⟩
  | .hbm, ⟨81, _⟩ => ⟨S_, .i32⟩
  | .hbm, ⟨82, _⟩ => ⟨S640000, .i32⟩
  | .hbm, ⟨83, _⟩ => ⟨S640000, .i32⟩
  | .hbm, ⟨84, _⟩ => ⟨S640000, .i32⟩
  | .hbm, ⟨85, _⟩ => ⟨S640000x1, .i32⟩
  | .hbm, ⟨86, _⟩ => ⟨S640000x256, .f32⟩
  | .hbm, ⟨87, _⟩ => ⟨S_, .f32⟩
  | .hbm, ⟨88, _⟩ => ⟨S100000x256, .f32⟩
  | .hbm, ⟨89, _⟩ => ⟨S640000x1, .i32⟩
  | .hbm, ⟨90, _⟩ => ⟨S100000x256, .f32⟩
  | .hbm, ⟨91, _⟩ => ⟨S100000x128, .f32⟩
  | .hbm, ⟨92, _⟩ => ⟨S100000x128, .f32⟩
  | .hbm, ⟨93, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S2000x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000x1 : S_.BroadcastsInDim S100000x1 (![] : Fin 0 → Fin S100000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  slices_S100000x256_S100000x128_0_0 : S100000x256.Slices ![0, 0] S100000x128
  slices_S100000x256_S100000x128_0_128 : S100000x256.Slices ![0, 128] S100000x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x1_S640000x1_S640000x1_1_0_n_n_0_1_11_wf : GatherDims.WF S100000x1 S640000x1 S640000x1 [1] [0] [] [0] [] 1 ![1, 1]
  scatter_S100000x1_S640000x1_S640000x1_1_0_0_1_wf : ScatterDims.WF S100000x1 S640000x1 S640000x1 [1] [0] [0] 1
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2000x128.size a ≤ S100000x128.size a
  hwx0_22 : ∀ i : grid0.Coords, EltTy.bits .f32 = 32 ∨ (Rect.block (s := S100000x128) S2000x128.size (cc0_transform_22 i) (hinb0_22 i)).WholeWords (EltTy.packing .f32)

variable [Facts₀]

def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg18) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg19) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v59) S2000x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S100000 : Shape := ⟨1, ![100000]⟩
abbrev S640000x1 : Shape := ⟨2, ![640000, 1]⟩
abbrev S640000x128 : Shape := ⟨2, ![640000, 128]⟩

abbrev nBuf : Space → Nat
  | .hbm => 275
  | .vmem => 0
  | .smem => 0
  | _ => 0

abbrev hbmTy0_0 (i : Nat) : BufTy := match i % 128 with
  | 0 => ⟨S100000x128, .f32⟩
  | 1 => ⟨S100000x128, .f32⟩
  | 2 => ⟨S100000x1, .f32⟩
  | 3 => ⟨S2x640000, .i32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1x640000, .i32⟩
  | 21 => ⟨S640000, .i32⟩
  | 22 => ⟨S1x640000, .i32⟩
  | 23 => ⟨S640000, .i32⟩
  | 24 => ⟨S100000x128, .f32⟩
  | 25 => ⟨S1x128, .f32⟩
  | 26 => ⟨S100000x128, .f32⟩
  | 27 => ⟨S100000x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S_, .i32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S100000, .f32⟩
  | 70 => ⟨S100000x1, .f32⟩
  | 71 => ⟨S100000x1, .f32⟩
  | 72 => ⟨S100000x1, .f32⟩
  | 73 => ⟨S_, .f32⟩
  | 74 => ⟨S_, .i1⟩
  | 75 => ⟨S_, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S_, .f32⟩
  | 82 => ⟨S100000x1, .f32⟩
  | 83 => ⟨S100000x1, .f32⟩
  | 84 => ⟨S100000x1, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S_, .f32⟩
  | 122 => ⟨S100000x1, .f32⟩
  | 123 => ⟨S100000x1, .f32⟩
  | 124 => ⟨S_, .i32⟩
  | 125 => ⟨S_, .f32⟩
  | 126 => ⟨S100000, .f32⟩
  | 127 => ⟨S100000x1, .f32⟩
  | _ => ⟨S100000x128, .f32⟩

abbrev hbmTy0_1 (i : Nat) : BufTy := match i % 128 with
  | 0 => ⟨S_, .f32⟩
  | 1 => ⟨S100000x1, .f32⟩
  | 2 => ⟨S100000x1, .f32⟩
  | 3 => ⟨S100000x128, .f32⟩
  | 4 => ⟨S100000x128, .f32⟩
  | 5 => ⟨S100000x128, .f32⟩
  | 6 => ⟨S_, .f32⟩
  | 7 => ⟨S_, .f32⟩
  | 8 => ⟨S_, .f32⟩
  | 9 => ⟨S_, .f32⟩
  | 10 => ⟨S100000, .f32⟩
  | 11 => ⟨S100000x1, .f32⟩
  | 12 => ⟨S100000x1, .f32⟩
  | 13 => ⟨S100000x1, .f32⟩
  | 14 => ⟨S_, .f32⟩
  | 15 => ⟨S_, .i1⟩
  | 16 => ⟨S_, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S_, .f32⟩
  | 23 => ⟨S100000x1, .f32⟩
  | 24 => ⟨S100000x1, .f32⟩
  | 25 => ⟨S100000x1, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x1, .f32⟩
  | 36 => ⟨S100000x1, .f32⟩
  | 37 => ⟨S_, .f32⟩
  | 38 => ⟨S100000x1, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x1, .f32⟩
  | 48 => ⟨S_, .f32⟩
  | 49 => ⟨S100000x1, .f32⟩
  | 50 => ⟨S640000x1, .i32⟩
  | 51 => ⟨S100000x1, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x1, .f32⟩
  | 61 => ⟨S_, .f32⟩
  | 62 => ⟨S100000x1, .f32⟩
  | 63 => ⟨S640000x1, .i32⟩
  | 64 => ⟨S100000x1, .f32⟩
  | 65 => ⟨S100000x1, .f32⟩
  | 66 => ⟨S100000x1, .f32⟩
  | 67 => ⟨S100000x1, .f32⟩
  | 68 => ⟨S100000x1, .f32⟩
  | 69 => ⟨S_, .f32⟩
  | 70 => ⟨S100000x1, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S100000x128, .f32⟩
  | 81 => ⟨S100000x128, .f32⟩
  | 82 => ⟨S100000x128, .f32⟩
  | 83 => ⟨S100000x128, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x128, .f32⟩
  | 93 => ⟨S_, .f32⟩
  | 94 => ⟨S100000x128, .f32⟩
  | 95 => ⟨S640000x1, .i32⟩
  | 96 => ⟨S100000x128, .f32⟩
  | 97 => ⟨S100000x128, .f32⟩
  | 98 => ⟨S100000x128, .f32⟩
  | 99 => ⟨S100000x1, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S_, .i32⟩
  | 107 => ⟨S640000, .i32⟩
  | 108 => ⟨S640000, .i1⟩
  | 109 => ⟨S_, .i32⟩
  | 110 => ⟨S640000, .i32⟩
  | 111 => ⟨S640000, .i32⟩
  | 112 => ⟨S640000, .i32⟩
  | 113 => ⟨S640000x1, .i32⟩
  | 114 => ⟨S640000x128, .f32⟩
  | 115 => ⟨S_, .f32⟩
  | 116 => ⟨S100000x128, .f32⟩
  | 117 => ⟨S640000x1, .i32⟩
  | 118 => ⟨S100000x128, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_c : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_5 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_6 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_7 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_8 : Ref sig .tc := ⟨.hbm, 107, rfl⟩
abbrev main_v55 : Ref sig .tc := ⟨.hbm, 108, rfl⟩
abbrev main_v56 : Ref sig .tc := ⟨.hbm, 109, rfl⟩
abbrev main_cst_9 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_10 : Ref sig .tc := ⟨.hbm, 118, rfl⟩
abbrev main_v64 : Ref sig .tc := ⟨.hbm, 119, rfl⟩
abbrev main_v65 : Ref sig .tc := ⟨.hbm, 120, rfl⟩
abbrev main_cst_11 : Ref sig .tc := ⟨.hbm, 121, rfl⟩
abbrev main_v66 : Ref sig .tc := ⟨.hbm, 122, rfl⟩
abbrev main_v67 : Ref sig .tc := ⟨.hbm, 123, rfl⟩
abbrev main_c_12 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_v12 : Ref sig .tc := ⟨.hbm, 141, rfl⟩
abbrev main_call1_cst_3 : Ref sig .tc := ⟨.hbm, 142, rfl⟩
abbrev main_call1_v13 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_13 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_cst_14 : Ref sig .tc := ⟨.hbm, 162, rfl⟩
abbrev main_v82 : Ref sig .tc := ⟨.hbm, 163, rfl⟩
abbrev main_v83 : Ref sig .tc := ⟨.hbm, 164, rfl⟩
abbrev main_cst_15 : Ref sig .tc := ⟨.hbm, 165, rfl⟩
abbrev main_v84 : Ref sig .tc := ⟨.hbm, 166, rfl⟩
abbrev main_c_16 : Ref sig .tc := ⟨.hbm, 167, rfl⟩
abbrev main_v85 : Ref sig .tc := ⟨.hbm, 168, rfl⟩
abbrev main_v86 : Ref sig .tc := ⟨.hbm, 169, rfl⟩
abbrev main_c_17 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_18 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_c_19 : Ref sig .tc := ⟨.hbm, 180, rfl⟩
abbrev main_v95 : Ref sig .tc := ⟨.hbm, 181, rfl⟩
abbrev main_v96 : Ref sig .tc := ⟨.hbm, 182, rfl⟩
abbrev main_c_20 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_cst_21 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_cst_22 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_23 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_cst_24 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_c_25 : Ref sig .tc := ⟨.hbm, 212, rfl⟩
abbrev main_v121 : Ref sig .tc := ⟨.hbm, 213, rfl⟩
abbrev main_v122 : Ref sig .tc := ⟨.hbm, 214, rfl⟩
abbrev main_c_26 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_cst_27 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_c_28 : Ref sig .tc := ⟨.hbm, 234, rfl⟩
abbrev main_v140 : Ref sig .tc := ⟨.hbm, 235, rfl⟩
abbrev main_v141 : Ref sig .tc := ⟨.hbm, 236, rfl⟩
abbrev main_c_29 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_30 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_cst_31 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_cst_32 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_cst_33 : Ref sig .tc := ⟨.hbm, 263, rfl⟩
abbrev main_v164 : Ref sig .tc := ⟨.hbm, 264, rfl⟩
abbrev main_v165 : Ref sig .tc := ⟨.hbm, 265, rfl⟩
abbrev main_cst_34 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  dot_S100000x128_S128x128_S100000x128_1_0_0_1_n_n_wf : DotDims.WF S100000x128 S128x128 S100000x128 [1] [0] [0] [1] [] []
  gather_S100000x1_S640000x1_S640000x1_1_0_n_n_0_1_11_wf : GatherDims.WF S100000x1 S640000x1 S640000x1 [1] [0] [] [0] [] 1 ![1, 1]
  scatter_S100000x1_S640000x1_S640000x1_1_0_0_1_wf : ScatterDims.WF S100000x1 S640000x1 S640000x1 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Cell.lean ====
/- One node's update, as a function of that node's own rows.

   For one node, given its row of current features, its row of initial features, its boundary indicator, its inverse
   square-root degree, and its two rows of neighbour sums, the layer computes, for every output column:
   a "rate" row (a two-layer perceptron of the current features, normalised along the row), a "gamma" row (the same
   of the initial features), the mixed row  h = ((1 - b)·s)·inAgg + (rate·(b·s))·outAgg,  and finally a two-layer
   perceptron of h plus gamma. Every quantity is an extended real; the float constants are kept as the words the
   programs spell. Row normalisation is written with the reciprocal square root; the form with a quotient by the
   square root is shown equal wherever the variance plus epsilon is positive, which it always is: a sum of squares
   is nonnegative on the extended reals and epsilon is a positive real. -/
import Idealize.ShloMosaic.PureOps.Ideal
import Idealize.ShloMosaic.PureOps.Ideal.Laws

noncomputable section

namespace Cert.Cell

open Idealize.ShloMosaic
open scoped BigOperators

/-- A row of 128 extended reals, and a 128 × 128 matrix of them. -/
abbrev Row := Fin 128 → EReal
abbrev Mat := Fin 128 → Fin 128 → EReal

/-- The float constants, as the extended reals their words denote. -/
def cCube : EReal := Ideal.ofBits .f32 0x3D372713#32
def cScale : EReal := Ideal.ofBits .f32 0x3F4C422A#32
def cOne : EReal := Ideal.ofBits .f32 0x3F800000#32
def cHalf : EReal := Ideal.ofBits .f32 0x3F000000#32
def cWidth : EReal := Ideal.ofBits .f32 0x43000000#32
def cEps : EReal := Ideal.ofBits .f32 0x3727C5AC#32

/-- A row times a matrix, plus a bias row. -/
def dense (x : Row) (W : Mat) (b : Row) : Row := fun j => (∑ t : Fin 128, x t * W t j) + b j

/-- The tanh form of the Gaussian error linear unit. -/
def gelu (z : EReal) : EReal := z * (cHalf * (cOne + Ideal.tanh (cScale * (z + cCube * (z * (z * z))))))

/-- Two dense layers with the unit between them. -/
def mlp (x : Row) (W1 : Mat) (b1 : Row) (W2 : Mat) (b2 : Row) : Row := dense (fun t => gelu (dense x W1 b1 t)) W2 b2

/-- A row's mean and variance (both quotients by the row's width). -/
def mean (z : Row) : EReal := Ideal.div (∑ t : Fin 128, z t) cWidth
def var (z : Row) : EReal := Ideal.div (∑ t : Fin 128, (z t - mean z) * (z t - mean z)) cWidth

/-- Row normalisation with scale and shift, by the reciprocal square root. -/
def ln (z g b : Row) : Row := fun j => (z j - mean z) * Ideal.rsqrt (var z + cEps) * g j + b j

/-- The same by a quotient by the square root. -/
def lnHost (z g b : Row) : Row := fun j => Ideal.div (z j - mean z) (Ideal.sqrt (var z + cEps)) * g j + b j

/-- The mixed row. -/
def mix (rate : Row) (ind inv : EReal) (ina outa : Row) : Row :=
  fun t => ((cOne - ind) * inv) * ina t + (rate t * (ind * inv)) * outa t

/-- One node's output row. -/
def cell (xt x0 : Row) (ind inv : EReal) (ina outa : Row)
    (Wr1 : Mat) (br1 : Row) (Wr2 : Mat) (br2 gr ber : Row) (Wg1 : Mat) (bg1 : Row) (Wg2 : Mat) (bg2 gg beg : Row)
    (Wf1 : Mat) (bf1 : Row) (Wf2 : Mat) (bf2 : Row) : Row :=
  fun j => mlp (mix (ln (mlp xt Wr1 br1 Wr2 br2) gr ber) ind inv ina outa) Wf1 bf1 Wf2 bf2 j
    + ln (mlp x0 Wg1 bg1 Wg2 bg2) gg beg j

/-! ## The constants that are evaluated -/

theorem cWidth_eq : cWidth = ((128 : ℝ) : EReal) := by
  unfold cWidth; simp [Ideal.ofBits, Ideal.ieee, -EReal.coe_mul]; norm_num

theorem cEps_pos : 0 < cEps := by
  unfold cEps
  simp [Ideal.ofBits, Ideal.ieee, -EReal.coe_mul]

/-! ## Squares and their sums are nonnegative -/

theorem mul_self_nonneg' (x : EReal) : 0 ≤ x * x := by
  rcases le_total 0 x with h | h
  · exact mul_nonneg h h
  · have : x * x = (-x) * (-x) := (neg_mul_neg x x).symm
    rw [this]
    exact mul_nonneg (EReal.neg_nonneg.mpr h) (EReal.neg_nonneg.mpr h)

theorem var_nonneg (z : Row) : 0 ≤ var z := by
  unfold var
  rw [cWidth_eq, Ideal.div_coe (by norm_num : (128 : ℝ) ≠ 0)]
  refine mul_nonneg (Finset.sum_nonneg fun t _ => mul_self_nonneg' _) ?_
  exact_mod_cast (by norm_num : (0 : ℝ) ≤ 1 / 128)

theorem var_eps_pos (z : Row) : 0 < var z + cEps :=
  lt_of_lt_of_le cEps_pos (le_add_of_nonneg_left (var_nonneg z))

/-! ## The quotient by a square root is the product with the reciprocal square root -/

theorem div_sqrt (a y : EReal) (hy : 0 < y) : Ideal.div a (Ideal.sqrt y) = a * Ideal.rsqrt y := by
  induction y using EReal.rec with
  | bot => exact absurd hy (not_lt.mpr bot_le)
  | top =>
    rw [Ideal.sqrt_top, Ideal.rsqrt_top, Ideal.div, if_neg (by decide), EReal.inv_top]
  | coe r =>
    have hr : 0 < r := by exact_mod_cast hy
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]

theorem lnHost_eq (z g b : Row) : lnHost z g b = ln z g b := by
  funext j
  unfold lnHost ln
  rw [div_sqrt _ _ (var_eps_pos z)]

end Cert.Cell

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibColRead.lean ====
/- Vector operations of the ideal float instance read at an entry, for any extents: a vector made a one-column
   matrix, a one-column matrix spread over the columns, the maximum down a one-column matrix, a one-entry vector made a
   one-entry matrix, a one-entry matrix spread over a matrix, and the entry taken out of a one-entry matrix. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.ColRead

open Idealize.ShloMosaic Idealize.ShloMosaic.ValueIdx
open scoped BigOperators

variable {α : Type} {φ : FTy}

/-- A vector made a one-column matrix reads, at (i, ·), the vector at i. -/
theorem colCast_read {a : ℕ} (v : (⟨1, ![a]⟩ : Shape).Idx → α)
    (hc : (⟨1, ![a]⟩ : Shape).ShapeCasts ⟨2, ![a, 1]⟩) (i : Fin a) (u : Fin 1) :
    shapeCast ⟨2, ![a, 1]⟩ v hc (ix2 i u) = v (ix1 i) := by
  have hu : u.val = 0 := by omega
  exact shapeCast_apply v hc _ _ (by
    rw [Shape.rowMajor_val_one, Shape.rowMajor_val_two]
    show i.val = i.val * 1 + u.val
    omega)

/-- A one-column matrix spread over b columns reads, at (i, j), the column at (i, 0). -/
theorem colSpread_read {a b : ℕ} (x : (⟨2, ![a, 1]⟩ : Shape).Idx → α)
    (hb : (⟨2, ![a, 1]⟩ : Shape).Broadcasts ⟨2, ![a, b]⟩) (i : Fin a) (j : Fin b) :
    broadcastTo ⟨2, ![a, b]⟩ x hb (ix2 i j) = x (ix2 i (0 : Fin 1)) := by
  refine broadcastTo_apply x hb (ix2 i j) (ix2 i (0 : Fin 1)) fun ax => ?_
  match ax with
  | ⟨0, _⟩ =>
    show i.val = if a = 1 then 0 else i.val
    split
    · have := i.isLt; omega
    · rfl
  | ⟨1, _⟩ => rfl

/-- Row r of a one-column matrix put back under the single entry of its column maxima: (r, 0). -/
theorem lift_col {a : ℕ} (h : (⟨2, ![a, 1]⟩ : Shape).Reduces [0] ⟨1, ![1]⟩) (u : Fin 1) (r : Fin a) :
    h.lift (ix1 u) r = ix2 r (0 : Fin 1) := by
  have hu : u.val = 0 := by omega
  funext c; apply Fin.ext
  match c with
  | ⟨0, _⟩ => rfl
  | ⟨1, _⟩ => exact hu

/-- The maximum down a one-column matrix, folded from the accumulator's word. -/
theorem colMax_read {a : ℕ} (X : FVec Ideal ⟨2, ![a, 1]⟩ φ) (acc : BitVec φ.bits)
    (h : (⟨2, ![a, 1]⟩ : Shape).Reduces [0] ⟨1, ![1]⟩) (hφ : FKind.Formats φ) (hacc : acc = FKind.maximumf.neutral φ hφ) (u : Fin 1) :
    multiReduction .maximumf [0] ⟨1, ![1]⟩ X acc h hφ hacc (ix1 u)
      = (Finset.univ : Finset (Fin a)).fold max (Ideal.ofBits φ acc) (fun r => X (ix2 r (0 : Fin 1))) := by
  rw [Ideal.multiReduction_maximumf_single]
  congr 1
  funext r
  exact congrArg X (lift_col h u r)

/-- A one-entry vector made a one-entry matrix reads its entry. -/
theorem cast_1_11_read (v : (⟨1, ![1]⟩ : Shape).Idx → α)
    (hc : (⟨1, ![1]⟩ : Shape).ShapeCasts ⟨2, ![1, 1]⟩) (u u' : Fin 1) :
    shapeCast ⟨2, ![1, 1]⟩ v hc (ix2 u u') = v (ix1 (0 : Fin 1)) := by
  have hu : u.val = 0 := by omega
  have hu' : u'.val = 0 := by omega
  exact shapeCast_apply v hc _ _ (by
    rw [Shape.rowMajor_val_one, Shape.rowMajor_val_two]
    show (0 : ℕ) = u.val * 1 + u'.val
    omega)

/-- A one-entry matrix spread over a rows and b columns reads its entry everywhere. -/
theorem spread_11_read {a b : ℕ} (x : (⟨2, ![1, 1]⟩ : Shape).Idx → α)
    (hb : (⟨2, ![1, 1]⟩ : Shape).Broadcasts ⟨2, ![a, b]⟩) (i : Fin a) (j : Fin b) :
    broadcastTo ⟨2, ![a, b]⟩ x hb (ix2 i j) = x (ix2 (0 : Fin 1) (0 : Fin 1)) := by
  refine broadcastTo_apply x hb (ix2 i j) (ix2 (0 : Fin 1) (0 : Fin 1)) fun ax => ?_
  match ax with
  | ⟨0, _⟩ => rfl
  | ⟨1, _⟩ => rfl

end Cert.Lib.ColRead

end
-- ==== Proof.KernelRow.lean ====
/- The kernel body's stored value, read at one entry.

   The body works on a block of 2000 nodes at a time. Everything it computes is local to a node: entry (p, q) of the
   block it stores depends on row p of each loaded block, on the p-th entries of the two one-column blocks, and on the
   whole weight matrices and bias rows. Read at (p, q), each piece of the body is the corresponding function of
   Cell: a matrix product into the zero accumulator is a sum over the contracted axis, a lane reduction is a sum
   along the row, a bias row spread over the block is read at its column, a one-column block spread over the lanes is
   read at its row, and a change of float format is the identity. -/
import proofs.«141166_j20315195310328_1_alg».proof.Proof.Gen.KernelIdeal.Skeleton
import proofs.«141166_j20315195310328_1_alg».proof.Proof.Cell
import proofs.«141166_j20315195310328_1_alg».proof.Proof.LibMatProd
import proofs.«141166_j20315195310328_1_alg».proof.Proof.LibMatRead
import proofs.«141166_j20315195310328_1_alg».proof.Proof.LibColRead
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx
open scoped BigOperators

/-- Row p of a block, a weight matrix, and a bias row, as plain functions. -/
abbrev rowOf {φ : FTy} (X : FVec Ideal S2000x128 φ) (p : Fin 2000) : Cert.Cell.Row := fun t => X (ix2 p t)
abbrev matOf {φ : FTy} (W : FVec Ideal S128x128 φ) : Cert.Cell.Mat := fun t j => W (ix2 t j)
abbrev vecOf (b : FVec Ideal S128 .f32) : Cert.Cell.Row := fun j => b (ix1 j)

/-! ## The body's operations at an entry -/

theorem tanh_at {s : Shape} (v : FVec Ideal s .f32) (i : s.Idx) : tanh v i = Ideal.tanh (v i) := rfl
theorem rsqrt_at {s : Shape} (v : FVec Ideal s .f32) (i : s.Idx) : rsqrt v i = Ideal.rsqrt (v i) := rfl

/-- A block times a weight matrix into the zero accumulator: the sum over the contracted axis. -/
theorem matmul_at {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ t : Fin 128, l (ix2 p t) * r (ix2 t q) :=
  Cert.Lib.MatProd.matmul_zero_read none l r p q

/-- A bias row spread over the block, at (p, q): the row at q. -/
theorem bias_at (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- A lane sum, at p: the sum along row p. -/
theorem laneSum_at (X : FVec Ideal S2000x128 .f32) (hφ : FTy.f32 = FTy.f32 ∨ FTy.f32 = FTy.bf16)
    (hacc : (0x00000000#32 : BitVec 32) = 0x00000000#32) (p : Fin 2000) :
    multiReduction .add [1] S2000 X 0x00000000#32 reduces_S2000x128_S2000 hφ hacc (ix1 p) = ∑ t : Fin 128, X (ix2 p t) :=
  Cert.Lib.MatRead.rowSum_read X 0x00000000#32 reduces_S2000x128_S2000 hφ hacc p

/-- A vector of per-row values made a one-column block. -/
theorem col_at (v : FVec Ideal S2000 .f32) (p : Fin 2000) (u : Fin 1) :
    shapeCast S2000x1 v shapeCasts_S2000_S2000x1 (ix2 p u) = v (ix1 p) :=
  Cert.Lib.ColRead.colCast_read v shapeCasts_S2000_S2000x1 p u

/-- A one-column block spread over the lanes. -/
theorem spread_at (x : FVec Ideal S2000x1 .f32) (p : Fin 2000) (q : Fin 128) :
    broadcastTo S2000x128 x broadcasts_S2000x1_S2000x128 (ix2 p q) = x (ix2 p (0 : Fin 1)) :=
  Cert.Lib.ColRead.colSpread_read x broadcasts_S2000x1_S2000x128 p q

/-! ## The pieces of the body -/

/-- The first perceptron's output at (p, q). -/
theorem pay13_at (v9 : FVec Ideal S2000x128 .bf16) (v12 v14 : FVec Ideal S128x128 .bf16) (v23 v24 : FVec Ideal S128 .f32)
    (p : Fin 2000) (q : Fin 128) :
    k0_pay13 (F := Ideal) v9 v12 v14 v23 v24 (ix2 p q)
      = Cert.Cell.mlp (rowOf v9 p) (matOf v12) (vecOf v23) (matOf v14) (vecOf v24) q := by
  unfold k0_pay13
  simp only [addf_apply, mulf_apply, truncf_apply, broadcast_apply, tanh_at, matmul_at, bias_at]
  rfl

/-- Its row mean, as a one-column block. -/
theorem pay14_at (v9 : FVec Ideal S2000x128 .bf16) (v12 v14 : FVec Ideal S128x128 .bf16) (v23 v24 : FVec Ideal S128 .f32)
    (p : Fin 2000) (u : Fin 1) :
    k0_pay14 (F := Ideal) v9 v12 v14 v23 v24 (ix2 p u)
      = Cert.Cell.mean (Cert.Cell.mlp (rowOf v9 p) (matOf v12) (vecOf v23) (matOf v14) (vecOf v24)) := by
  unfold k0_pay14
  simp only [divf_apply, broadcast_apply, col_at]
  rw [laneSum_at]
  simp only [pay13_at]
  rfl

/-- The centred row. -/
theorem pay15_at (v9 : FVec Ideal S2000x128 .bf16) (v12 v14 : FVec Ideal S128x128 .bf16) (v23 v24 : FVec Ideal S128 .f32)
    (p : Fin 2000) (q : Fin 128) :
    k0_pay15 (F := Ideal) v9 v12 v14 v23 v24 (ix2 p q)
      = Cert.Cell.mlp (rowOf v9 p) (matOf v12) (vecOf v23) (matOf v14) (vecOf v24) q
        - Cert.Cell.mean (Cert.Cell.mlp (rowOf v9 p) (matOf v12) (vecOf v23) (matOf v14) (vecOf v24)) := by
  unfold k0_pay15
  simp only [subf_apply, spread_at, pay13_at, pay14_at]

/-- The reciprocal root of the row's variance plus epsilon, spread over the lanes. -/
theorem pay16_at (v9 : FVec Ideal S2000x128 .bf16) (v12 v14 : FVec Ideal S128x128 .bf16) (v23 v24 : FVec Ideal S128 .f32)
    (p : Fin 2000) (q : Fin 128) :
    k0_pay16 (F := Ideal) v9 v12 v14 v23 v24 (ix2 p q)
      = Ideal.rsqrt (Cert.Cell.var (Cert.Cell.mlp (rowOf v9 p) (matOf v12) (vecOf v23) (matOf v14) (vecOf v24)) + Cert.Cell.cEps) := by
  unfold k0_pay16
  simp only [subf_apply, mulf_apply, addf_apply, divf_apply, broadcast_apply, rsqrt_at, spread_at, col_at]
  rw [laneSum_at]
  simp only [subf_apply, mulf_apply, spread_at, pay13_at, pay14_at]
  rfl

/-- Scale and shift of a centred row times its reciprocal root. -/
theorem pay17_at (v25 v26 : FVec Ideal S128 .f32) (v69 v73 : FVec Ideal S2000x128 .f32) (p : Fin 2000) (q : Fin 128) :
    k0_pay17 (F := Ideal) v25 v26 v69 v73 (ix2 p q) = v69 (ix2 p q) * v73 (ix2 p q) * v25 (ix1 q) + v26 (ix1 q) := by
  unfold k0_pay17
  simp only [addf_apply, mulf_apply, bias_at]

/-- The second branch: perceptron, centred, times the reciprocal root. -/
theorem pay18_at (v10 : FVec Ideal S2000x128 .bf16) (v16 v18 : FVec Ideal S128x128 .bf16) (v27 v28 : FVec Ideal S128 .f32)
    (p : Fin 2000) (q : Fin 128) :
    k0_pay18 (F := Ideal) v10 v16 v18 v27 v28 (ix2 p q)
      = (Cert.Cell.mlp (rowOf v10 p) (matOf v16) (vecOf v27) (matOf v18) (vecOf v28) q
          - Cert.Cell.mean (Cert.Cell.mlp (rowOf v10 p) (matOf v16) (vecOf v27) (matOf v18) (vecOf v28)))
        * Ideal.rsqrt (Cert.Cell.var (Cert.Cell.mlp (rowOf v10 p) (matOf v16) (vecOf v27) (matOf v18) (vecOf v28)) + Cert.Cell.cEps) := by
  unfold k0_pay18
  repeat (first
    | rw [laneSum_at]
    | simp only [subf_apply, mulf_apply, addf_apply, divf_apply, truncf_apply, broadcast_apply, tanh_at, rsqrt_at, spread_at,
        col_at, matmul_at, bias_at])
  rfl

/-- The last piece: the mixed row through the output perceptron, plus the scaled and shifted second branch. -/
theorem pay1_at (v2 v4 : FVec Ideal S2000x1 .f32) (v6 v8 : FVec Ideal S2000x128 .f32) (v20 v22 : FVec Ideal S128x128 .bf16)
    (v29 v30 v31 v32 : FVec Ideal S128 .f32) (v80 v122 : FVec Ideal S2000x128 .f32) (p : Fin 2000) (q : Fin 128) :
    k0_pay1 (F := Ideal) v2 v4 v6 v8 v20 v22 v29 v30 v31 v32 v80 v122 (ix2 p q)
      = Cert.Cell.mlp (Cert.Cell.mix (rowOf v80 p) (v2 (ix2 p (0 : Fin 1))) (v4 (ix2 p (0 : Fin 1))) (rowOf v6 p) (rowOf v8 p))
          (matOf v20) (vecOf v31) (matOf v22) (vecOf v32) q
        + (v122 (ix2 p q) * v29 (ix1 q) + v30 (ix1 q)) := by
  unfold k0_pay1
  simp only [subf_apply, mulf_apply, addf_apply, truncf_apply, broadcast_apply, tanh_at, spread_at, matmul_at, bias_at]
  rfl

end Cert.KernelIdeal.Row

end
-- ==== Proof.KernelBody.lean ====
/- The whole value the kernel body stores, at one entry: Cell.cell of the point's rows.

   The remaining pieces of the body are identities at the ideal instance (a cast to the same shape, a change of float
   format). Composing the pieces: the value stored at (p, q) is the layer's update of node p of the block, column q, as a
   function of row p of each loaded block and of the whole weight blocks. -/
import proofs.«141166_j20315195310328_1_alg».proof.Proof.KernelRow

noncomputable section

namespace Cert.KernelIdeal.Row

open Cert.KernelIdeal Cert.KernelIdeal.Gen Idealize.ShloMosaic Idealize.ShloMosaic.ValueIdx
open scoped BigOperators

theorem pay2_at (v : FVec Ideal S2000x1 .f32) (i : S2000x1.Idx) : k0_pay2 (F := Ideal) v i = v i := by
  unfold k0_pay2; rw [shapeCast_self]
theorem pay3_at (v : FVec Ideal S2000x128 .f32) (i : S2000x128.Idx) : k0_pay3 (F := Ideal) v i = v i := by
  unfold k0_pay3; rw [shapeCast_self]
theorem pay4_at (v : FVec Ideal S2000x128 .f32) (i : S2000x128.Idx) : k0_pay4 (F := Ideal) v i = v i := by
  unfold k0_pay4; rw [shapeCast_self]
theorem pay5_at (v : FVec Ideal S2000x128 .f32) (i : S2000x128.Idx) : k0_pay5 (F := Ideal) v i = v i := rfl
theorem pay6_at (v : FVec Ideal S2000x128 .f32) (i : S2000x128.Idx) : k0_pay6 (F := Ideal) v i = v i := rfl
theorem pay7_at (v : FVec Ideal S128x128 .f32) (i : S128x128.Idx) : k0_pay7 (F := Ideal) v i = v i := rfl
theorem pay8_at (v : FVec Ideal S128x128 .f32) (i : S128x128.Idx) : k0_pay8 (F := Ideal) v i = v i := rfl
theorem pay9_at (v : FVec Ideal S128x128 .f32) (i : S128x128.Idx) : k0_pay9 (F := Ideal) v i = v i := rfl
theorem pay10_at (v : FVec Ideal S128x128 .f32) (i : S128x128.Idx) : k0_pay10 (F := Ideal) v i = v i := rfl
theorem pay11_at (v : FVec Ideal S128x128 .f32) (i : S128x128.Idx) : k0_pay11 (F := Ideal) v i = v i := rfl
theorem pay12_at (v : FVec Ideal S128x128 .f32) (i : S128x128.Idx) : k0_pay12 (F := Ideal) v i = v i := rfl

/-- The stored value at (p, q). -/
theorem body_at (x0 x1 : FVec Ideal S2000x128 .f32) (x2 x3 : FVec Ideal S2000x1 .f32) (x4 x5 : FVec Ideal S2000x128 .f32)
    (x6 : FVec Ideal S128x128 .f32) (x7 : FVec Ideal S128 .f32) (x8 : FVec Ideal S128x128 .f32) (x9 x10 x11 : FVec Ideal S128 .f32)
    (x12 : FVec Ideal S128x128 .f32) (x13 : FVec Ideal S128 .f32) (x14 : FVec Ideal S128x128 .f32) (x15 x16 x17 : FVec Ideal S128 .f32)
    (x18 : FVec Ideal S128x128 .f32) (x19 : FVec Ideal S128 .f32) (x20 : FVec Ideal S128x128 .f32) (x21 : FVec Ideal S128 .f32)
    (p : Fin 2000) (q : Fin 128) :
    k0_pay1 (F := Ideal) x2 (k0_pay2 x3) (k0_pay3 x4) (k0_pay4 x5) (k0_pay11 x18) (k0_pay12 x20) x16 x17 x19 x21
        (k0_pay17 x10 x11 (k0_pay15 (k0_pay5 x0) (k0_pay7 x6) (k0_pay8 x8) x7 x9)
          (k0_pay16 (k0_pay5 x0) (k0_pay7 x6) (k0_pay8 x8) x7 x9))
        (k0_pay18 (k0_pay6 x1) (k0_pay9 x12) (k0_pay10 x14) x13 x15) (ix2 p q)
      = Cert.Cell.cell (rowOf x0 p) (rowOf x1 p) (x2 (ix2 p (0 : Fin 1))) (x3 (ix2 p (0 : Fin 1))) (rowOf x4 p) (rowOf x5 p)
          (matOf x6) (vecOf x7) (matOf x8) (vecOf x9) (vecOf x10) (vecOf x11)
          (matOf x12) (vecOf x13) (matOf x14) (vecOf x15) (vecOf x16) (vecOf x17)
          (matOf x18) (vecOf x19) (matOf x20) (vecOf x21) q := by
  rw [pay1_at]
  unfold rowOf matOf vecOf
  simp only [pay2_at, pay3_at, pay4_at, pay5_at, pay6_at, pay7_at, pay8_at, pay9_at, pay10_at, pay11_at, pay12_at,
    pay15_at, pay16_at, pay17_at, pay18_at]
  rfl

end Cert.KernelIdeal.Row

end
-- ==== Proof.KernelIdx.lean ====
/- Which node each block row is.

   Point t of the 50-point grid works on nodes 2000·t … 2000·t + 1999: every row-blocked window's block index at t is
   (t, 0), every weight and bias window's block is the whole array. So row p of each block at point t is row
   2000·t + p of its array. -/
import proofs.«141166_j20315195310328_1_alg».proof.Proof.Gen.KernelIdeal.Value
import proofs.«141166_j20315195310328_1_alg».proof.Proof.KernelBody

noncomputable section

namespace Cert.KernelIdeal.Blocks

open Cert.KernelIdeal Cert.KernelIdeal.Gen Cert.KernelIdeal.Row Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The node that row p of point t's blocks is. -/
def nodeAt (t : Fin cfg0.N) (p : Fin 2000) : Fin 100000 :=
  ⟨t.val * 2000 + p.val, by have h := t.isLt; have hN : cfg0.N = 50 := N_0; have hp := p.isLt; omega⟩

/-! ## The printed index maps, decided over the grid -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx22 : ∀ t : Fin cfg0.N, win0_22.index t (0 : Fin 2) = t.val ∧ win0_22.index t (1 : Fin 2) = 0 :=
  (by decide +kernel : ∀ t : Fin grid0.N, win0_22.index t (0 : Fin 2) = t.val ∧ win0_22.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)
theorem idx20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)
theorem idx7 : ∀ t : Fin cfg0.N, win0_7.index t (0 : Fin 1) = 0 :=
  (by decide +kernel : ∀ t : Fin grid0.N, win0_7.index t (0 : Fin 1) = 0)
theorem idx9 : ∀ t : Fin cfg0.N, win0_9.index t (0 : Fin 1) = 0 :=
  (by decide +kernel : ∀ t : Fin grid0.N, win0_9.index t (0 : Fin 1) = 0)
theorem idx10 : ∀ t : Fin cfg0.N, win0_10.index t (0 : Fin 1) = 0 :=
  (by decide +kernel : ∀ t : Fin grid0.N, win0_10.index t (0 : Fin 1) = 0)
theorem idx11 : ∀ t : Fin cfg0.N, win0_11.index t (0 : Fin 1) = 0 :=
  (by decide +kernel : ∀ t : Fin grid0.N, win0_11.index t (0 : Fin 1) = 0)
theorem idx13 : ∀ t : Fin cfg0.N, win0_13.index t (0 : Fin 1) = 0 :=
  (by decide +kernel : ∀ t : Fin grid0.N, win0_13.index t (0 : Fin 1) = 0)
theorem idx15 : ∀ t : Fin cfg0.N, win0_15.index t (0 : Fin 1) = 0 :=
  (by decide +kernel : ∀ t : Fin grid0.N, win0_15.index t (0 : Fin 1) = 0)
theorem idx16 : ∀ t : Fin cfg0.N, win0_16.index t (0 : Fin 1) = 0 :=
  (by decide +kernel : ∀ t : Fin grid0.N, win0_16.index t (0 : Fin 1) = 0)
theorem idx17 : ∀ t : Fin cfg0.N, win0_17.index t (0 : Fin 1) = 0 :=
  (by decide +kernel : ∀ t : Fin grid0.N, win0_17.index t (0 : Fin 1) = 0)
theorem idx19 : ∀ t : Fin cfg0.N, win0_19.index t (0 : Fin 1) = 0 :=
  (by decide +kernel : ∀ t : Fin grid0.N, win0_19.index t (0 : Fin 1) = 0)
theorem idx21 : ∀ t : Fin cfg0.N, win0_21.index t (0 : Fin 1) = 0 :=
  (by decide +kernel : ∀ t : Fin grid0.N, win0_21.index t (0 : Fin 1) = 0)

/-! ## Each window's block at a point: where its entries sit in the array, and what they hold -/

theorem emb0 (t : Fin cfg0.N) (p : Fin 2000) (k : Fin 128) :
    ((cfg0.win 0).blk t).view.emb (ix2 p k) = ix2 (nodeAt t p) k := by
  obtain ⟨e0, e1⟩ := idx0 t
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem emb1 (t : Fin cfg0.N) (p : Fin 2000) (k : Fin 128) :
    ((cfg0.win 1).blk t).view.emb (ix2 p k) = ix2 (nodeAt t p) k := by
  obtain ⟨e0, e1⟩ := idx1 t
  funext a; apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem emb4 (t : Fin cfg0.N) (p : Fin 2000) (k : Fin 128) :
    ((cfg0.win 4).blk t).view.emb (ix2 p k) = ix2 (nodeAt t p) k := by
  obtain ⟨e0, e1⟩ := idx4 t
  funext a; apply Fin.ext
  match a with
  | ⟨0, _⟩ => show win0_4.index t (0 : Fin 2) * 2000 + 1 * p.val = t.val * 2000 + p.val; rw [e0]; omega
  | ⟨1, _⟩ => show win0_4.index t (1 : Fin 2) * 128 + 1 * k.val = k.val; rw [e1]; omega

theorem emb5 (t : Fin cfg0.N) (p : Fin 2000) (k : Fin 128) :
    ((cfg0.win 5).blk t).view.emb (ix2 p k) = ix2 (nodeAt t p) k := by
  obtain ⟨e0, e1⟩ := idx5 t
  funext a; apply Fin.ext
  match a with
  | ⟨0, _⟩ => show win0_5.index t (0 : Fin 2) * 2000 + 1 * p.val = t.val * 2000 + p.val; rw [e0]; omega
  | ⟨1, _⟩ => show win0_5.index t (1 : Fin 2) * 128 + 1 * k.val = k.val; rw [e1]; omega

theorem emb2 (t : Fin cfg0.N) (p : Fin 2000) :
    ((cfg0.win 2).blk t).view.emb (ix2 p (0 : Fin 1)) = ix2 (nodeAt t p) (0 : Fin 1) := by
  obtain ⟨e0, e1⟩ := idx2 t
  funext a; apply Fin.ext
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

theorem emb3 (t : Fin cfg0.N) (p : Fin 2000) :
    ((cfg0.win 3).blk t).view.emb (ix2 p (0 : Fin 1)) = ix2 (nodeAt t p) (0 : Fin 1) := by
  obtain ⟨e0, e1⟩ := idx3 t
  funext a; apply Fin.ext
  match a with
  | ⟨0, _⟩ => show win0_3.index t (0 : Fin 2) * 2000 + 1 * p.val = t.val * 2000 + p.val; rw [e0]; omega
  | ⟨1, _⟩ => show win0_3.index t (1 : Fin 2) * 1 + 1 * 0 = 0; rw [e1]

theorem emb6 (t : Fin cfg0.N) (a b : Fin 128) : ((cfg0.win 6).blk t).view.emb (ix2 a b) = ix2 a b := by
  obtain ⟨e0, e1⟩ := idx6 t
  funext d; apply Fin.ext
  match d with
  | ⟨0, _⟩ => show win0_6.index t (0 : Fin 2) * 128 + 1 * a.val = a.val; rw [e0]; omega
  | ⟨1, _⟩ => show win0_6.index t (1 : Fin 2) * 128 + 1 * b.val = b.val; rw [e1]; omega

theorem emb8 (t : Fin cfg0.N) (a b : Fin 128) : ((cfg0.win 8).blk t).view.emb (ix2 a b) = ix2 a b := by
  obtain ⟨e0, e1⟩ := idx8 t
  funext d; apply Fin.ext
  match d with
  | ⟨0, _⟩ => show win0_8.index t (0 : Fin 2) * 128 + 1 * a.val = a.val; rw [e0]; omega
  | ⟨1, _⟩ => show win0_8.index t (1 : Fin 2) * 128 + 1 * b.val = b.val; rw [e1]; omega

theorem emb12 (t : Fin cfg0.N) (a b : Fin 128) : ((cfg0.win 12).blk t).view.emb (ix2 a b) = ix2 a b := by
  obtain ⟨e0, e1⟩ := idx12 t
  funext d; apply Fin.ext
  match d with
  | ⟨0, _⟩ => show win0_12.index t (0 : Fin 2) * 128 + 1 * a.val = a.val; rw [e0]; omega
  | ⟨1, _⟩ => show win0_12.index t (1 : Fin 2) * 128 + 1 * b.val = b.val; rw [e1]; omega

theorem emb14 (t : Fin cfg0.N) (a b : Fin 128) : ((cfg0.win 14).blk t).view.emb (ix2 a b) = ix2 a b := by
  obtain ⟨e0, e1⟩ := idx14 t
  funext d; apply Fin.ext
  match d with
  | ⟨0, _⟩ => show win0_14.index t (0 : Fin 2) * 128 + 1 * a.val = a.val; rw [e0]; omega
  | ⟨1, _⟩ => show win0_14.index t (1 : Fin 2) * 128 + 1 * b.val = b.val; rw [e1]; omega

theorem emb18 (t : Fin cfg0.N) (a b : Fin 128) : ((cfg0.win 18).blk t).view.emb (ix2 a b) = ix2 a b := by
  obtain ⟨e0, e1⟩ := idx18 t
  funext d; apply Fin.ext
  match d with
  | ⟨0, _⟩ => show win0_18.index t (0 : Fin 2) * 128 + 1 * a.val = a.val; rw [e0]; omega
  | ⟨1, _⟩ => show win0_18.index t (1 : Fin 2) * 128 + 1 * b.val = b.val; rw [e1]; omega

theorem emb20 (t : Fin cfg0.N) (a b : Fin 128) : ((cfg0.win 20).blk t).view.emb (ix2 a b) = ix2 a b := by
  obtain ⟨e0, e1⟩ := idx20 t
  funext d; apply Fin.ext
  match d with
  | ⟨0, _⟩ => show win0_20.index t (0 : Fin 2) * 128 + 1 * a.val = a.val; rw [e0]; omega
  | ⟨1, _⟩ => show win0_20.index t (1 : Fin 2) * 128 + 1 * b.val = b.val; rw [e1]; omega

theorem emb7 (t : Fin cfg0.N) (k : Fin 128) : ((cfg0.win 7).blk t).view.emb (ix1 k) = ix1 k := by
  have e0 := idx7 t
  funext d; apply Fin.ext
  match d with
  | ⟨0, _⟩ => show win0_7.index t (0 : Fin 1) * 128 + 1 * k.val = k.val; rw [e0]; omega

theorem emb9 (t : Fin cfg0.N) (k : Fin 128) : ((cfg0.win 9).blk t).view.emb (ix1 k) = ix1 k := by
  have e0 := idx9 t
  funext d; apply Fin.ext
  match d with
  | ⟨0, _⟩ => show win0_9.index t (0 : Fin 1) * 128 + 1 * k.val = k.val; rw [e0]; omega

theorem emb10 (t : Fin cfg0.N) (k : Fin 128) : ((cfg0.win 10).blk t).view.emb (ix1 k) = ix1 k := by
  have e0 := idx10 t
  funext d; apply Fin.ext
  match d with
  | ⟨0, _⟩ => show win0_10.index t (0 : Fin 1) * 128 + 1 * k.val = k.val; rw [e0]; omega

theorem emb11 (t : Fin cfg0.N) (k : Fin 128) : ((cfg0.win 11).blk t).view.emb (ix1 k) = ix1 k := by
  have e0 := idx11 t
  funext d; apply Fin.ext
  match d with
  | ⟨0, _⟩ => show win0_11.index t (0 : Fin 1) * 128 + 1 * k.val = k.val; rw [e0]; omega

theorem emb13 (t : Fin cfg0.N) (k : Fin 128) : ((cfg0.win 13).blk t).view.emb (ix1 k) = ix1 k := by
  have e0 := idx13 t
  funext d; apply Fin.ext
  match d with
  | ⟨0, _⟩ => show win0_13.index t (0 : Fin 1) * 128 + 1 * k.val = k.val; rw [e0]; omega

theorem emb15 (t : Fin cfg0.N) (k : Fin 128) : ((cfg0.win 15).blk t).view.emb (ix1 k) = ix1 k := by
  have e0 := idx15 t
  funext d; apply Fin.ext
  match d with
  | ⟨0, _⟩ => show win0_15.index t (0 : Fin 1) * 128 + 1 * k.val = k.val; rw [e0]; omega

theorem emb16 (t : Fin cfg0.N) (k : Fin 128) : ((cfg0.win 16).blk t).view.emb (ix1 k) = ix1 k := by
  have e0 := idx16 t
  funext d; apply Fin.ext
  match d with
  | ⟨0, _⟩ => show win0_16.index t (0 : Fin 1) * 128 + 1 * k.val = k.val; rw [e0]; omega

theorem emb17 (t : Fin cfg0.N) (k : Fin 128) : ((cfg0.win 17).blk t).view.emb (ix1 k) = ix1 k := by
  have e0 := idx17 t
  funext d; apply Fin.ext
  match d with
  | ⟨0, _⟩ => show win0_17.index t (0 : Fin 1) * 128 + 1 * k.val = k.val; rw [e0]; omega

theorem emb19 (t : Fin cfg0.N) (k : Fin 128) : ((cfg0.win 19).blk t).view.emb (ix1 k) = ix1 k := by
  have e0 := idx19 t
  funext d; apply Fin.ext
  match d with
  | ⟨0, _⟩ => show win0_19.index t (0 : Fin 1) * 128 + 1 * k.val = k.val; rw [e0]; omega

theorem emb21 (t : Fin cfg0.N) (k : Fin 128) : ((cfg0.win 21).blk t).view.emb (ix1 k) = ix1 k := by
  have e0 := idx21 t
  funext d; apply Fin.ext
  match d with
  | ⟨0, _⟩ => show win0_21.index t (0 : Fin 1) * 128 + 1 * k.val = k.val; rw [e0]; omega

/-- Entry (p, q) of the output window's block at point t is entry (2000·t + p, q) of the result array. -/
theorem emb22 (t : Fin cfg0.N) (p : Fin 2000) (q : Fin 128) :
    ((cfg0.win 22).blk t).view.emb (ix2 p q) = ix2 (nodeAt t p) q := by
  obtain ⟨e0, e1⟩ := idx22 t
  funext a; apply Fin.ext
  match a with
  | ⟨0, _⟩ => show win0_22.index t (0 : Fin 2) * 2000 + 1 * p.val = t.val * 2000 + p.val; rw [e0]; omega
  | ⟨1, _⟩ => show win0_22.index t (1 : Fin 2) * 128 + 1 * q.val = q.val; rw [e1]; omega

end Cert.KernelIdeal.Blocks

end
-- ==== Proof.KernelBlk.lean ====
/- What each window's block holds.

   A window's block at a point is its array read through the block's rectangle, so with the rectangle's place known, row p
   of each node-blocked window's block at point t holds row 2000·t + p of the window's array, and each weight or bias
   window's block holds the whole array. -/
import proofs.«141166_j20315195310328_1_alg».proof.Proof.KernelIdx

noncomputable section

namespace Cert.KernelIdeal.Blocks

open Cert.KernelIdeal Cert.KernelIdeal.Gen Cert.KernelIdeal.Row Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem blk0 (c : Dev nD) (t : Fin cfg0.N) (p : Fin 2000) (k : Fin 128) :
    iblk m c 0 t (ix2 p k) = V m c (Pipeline.arrRef spec0 0) (ix2 (nodeAt t p) k) := by
  unfold iblk
  rw [View.read_apply, emb0, cast_eq]

theorem blk1 (c : Dev nD) (t : Fin cfg0.N) (p : Fin 2000) (k : Fin 128) :
    iblk m c 1 t (ix2 p k) = V m c (Pipeline.arrRef spec0 1) (ix2 (nodeAt t p) k) := by
  unfold iblk
  rw [View.read_apply, emb1, cast_eq]

theorem blk4 (c : Dev nD) (t : Fin cfg0.N) (p : Fin 2000) (k : Fin 128) :
    iblk m c 4 t (ix2 p k) = V m c (Pipeline.arrRef spec0 4) (ix2 (nodeAt t p) k) := by
  unfold iblk
  rw [View.read_apply, emb4, cast_eq]

theorem blk5 (c : Dev nD) (t : Fin cfg0.N) (p : Fin 2000) (k : Fin 128) :
    iblk m c 5 t (ix2 p k) = V m c (Pipeline.arrRef spec0 5) (ix2 (nodeAt t p) k) := by
  unfold iblk
  rw [View.read_apply, emb5, cast_eq]

theorem blk2 (c : Dev nD) (t : Fin cfg0.N) (p : Fin 2000) :
    iblk m c 2 t (ix2 p (0 : Fin 1)) = V m c (Pipeline.arrRef spec0 2) (ix2 (nodeAt t p) (0 : Fin 1)) := by
  unfold iblk
  rw [View.read_apply, emb2, cast_eq]

theorem blk3 (c : Dev nD) (t : Fin cfg0.N) (p : Fin 2000) :
    iblk m c 3 t (ix2 p (0 : Fin 1)) = V m c (Pipeline.arrRef spec0 3) (ix2 (nodeAt t p) (0 : Fin 1)) := by
  unfold iblk
  rw [View.read_apply, emb3, cast_eq]

theorem blk6 (c : Dev nD) (t : Fin cfg0.N) (a b : Fin 128) :
    iblk m c 6 t (ix2 a b) = V m c (Pipeline.arrRef spec0 6) (ix2 a b) := by
  unfold iblk
  rw [View.read_apply, emb6, cast_eq]

theorem blk8 (c : Dev nD) (t : Fin cfg0.N) (a b : Fin 128) :
    iblk m c 8 t (ix2 a b) = V m c (Pipeline.arrRef spec0 8) (ix2 a b) := by
  unfold iblk
  rw [View.read_apply, emb8, cast_eq]

theorem blk12 (c : Dev nD) (t : Fin cfg0.N) (a b : Fin 128) :
    iblk m c 12 t (ix2 a b) = V m c (Pipeline.arrRef spec0 12) (ix2 a b) := by
  unfold iblk
  rw [View.read_apply, emb12, cast_eq]

theorem blk14 (c : Dev nD) (t : Fin cfg0.N) (a b : Fin 128) :
    iblk m c 14 t (ix2 a b) = V m c (Pipeline.arrRef spec0 14) (ix2 a b) := by
  unfold iblk
  rw [View.read_apply, emb14, cast_eq]

theorem blk18 (c : Dev nD) (t : Fin cfg0.N) (a b : Fin 128) :
    iblk m c 18 t (ix2 a b) = V m c (Pipeline.arrRef spec0 18) (ix2 a b) := by
  unfold iblk
  rw [View.read_apply, emb18, cast_eq]

theorem blk20 (c : Dev nD) (t : Fin cfg0.N) (a b : Fin 128) :
    iblk m c 20 t (ix2 a b) = V m c (Pipeline.arrRef spec0 20) (ix2 a b) := by
  unfold iblk
  rw [View.read_apply, emb20, cast_eq]

theorem blk7 (c : Dev nD) (t : Fin cfg0.N) (k : Fin 128) :
    iblk m c 7 t (ix1 k) = V m c (Pipeline.arrRef spec0 7) (ix1 k) := by
  unfold iblk
  rw [View.read_apply, emb7, cast_eq]

theorem blk9 (c : Dev nD) (t : Fin cfg0.N) (k : Fin 128) :
    iblk m c 9 t (ix1 k) = V m c (Pipeline.arrRef spec0 9) (ix1 k) := by
  unfold iblk
  rw [View.read_apply, emb9, cast_eq]

theorem blk10 (c : Dev nD) (t : Fin cfg0.N) (k : Fin 128) :
    iblk m c 10 t (ix1 k) = V m c (Pipeline.arrRef spec0 10) (ix1 k) := by
  unfold iblk
  rw [View.read_apply, emb10, cast_eq]

theorem blk11 (c : Dev nD) (t : Fin cfg0.N) (k : Fin 128) :
    iblk m c 11 t (ix1 k) = V m c (Pipeline.arrRef spec0 11) (ix1 k) := by
  unfold iblk
  rw [View.read_apply, emb11, cast_eq]

theorem blk13 (c : Dev nD) (t : Fin cfg0.N) (k : Fin 128) :
    iblk m c 13 t (ix1 k) = V m c (Pipeline.arrRef spec0 13) (ix1 k) := by
  unfold iblk
  rw [View.read_apply, emb13, cast_eq]

theorem blk15 (c : Dev nD) (t : Fin cfg0.N) (k : Fin 128) :
    iblk m c 15 t (ix1 k) = V m c (Pipeline.arrRef spec0 15) (ix1 k) := by
  unfold iblk
  rw [View.read_apply, emb15, cast_eq]

theorem blk16 (c : Dev nD) (t : Fin cfg0.N) (k : Fin 128) :
    iblk m c 16 t (ix1 k) = V m c (Pipeline.arrRef spec0 16) (ix1 k) := by
  unfold iblk
  rw [View.read_apply, emb16, cast_eq]

theorem blk17 (c : Dev nD) (t : Fin cfg0.N) (k : Fin 128) :
    iblk m c 17 t (ix1 k) = V m c (Pipeline.arrRef spec0 17) (ix1 k) := by
  unfold iblk
  rw [View.read_apply, emb17, cast_eq]

theorem blk19 (c : Dev nD) (t : Fin cfg0.N) (k : Fin 128) :
    iblk m c 19 t (ix1 k) = V m c (Pipeline.arrRef spec0 19) (ix1 k) := by
  unfold iblk
  rw [View.read_apply, emb19, cast_eq]

theorem blk21 (c : Dev nD) (t : Fin cfg0.N) (k : Fin 128) :
    iblk m c 21 t (ix1 k) = V m c (Pipeline.arrRef spec0 21) (ix1 k) := by
  unfold iblk
  rw [View.read_apply, emb21, cast_eq]

end Cert.KernelIdeal.Blocks

end
-- ==== Proof.KernelOut.lean ====
/- The block a grid point stores, entry by entry.

   Entry (p, q) of the block that point t stores is the layer's update of node 2000·t + p, column q, from the arrays as the
   region finds them: the body's stored value is Cell.cell of the rows of the point's blocks, and those rows are that
   node's rows of the arrays. -/
import proofs.«141166_j20315195310328_1_alg».proof.Proof.KernelBlk

noncomputable section

namespace Cert.KernelIdeal.Blocks

open Cert.KernelIdeal Cert.KernelIdeal.Gen Cert.KernelIdeal.Row Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The layer's update of node r, column q, from the windows' arrays as the region finds them. -/
def nodeCell (c : Dev nD) (r : Fin 100000) (q : Fin 128) : EReal :=
  Cert.Cell.cell (fun k => V m c (Pipeline.arrRef spec0 0) (ix2 r k)) (fun k => V m c (Pipeline.arrRef spec0 1) (ix2 r k))
    (V m c (Pipeline.arrRef spec0 2) (ix2 r (0 : Fin 1))) (V m c (Pipeline.arrRef spec0 3) (ix2 r (0 : Fin 1)))
    (fun k => V m c (Pipeline.arrRef spec0 4) (ix2 r k)) (fun k => V m c (Pipeline.arrRef spec0 5) (ix2 r k))
    (fun a b => V m c (Pipeline.arrRef spec0 6) (ix2 a b)) (fun k => V m c (Pipeline.arrRef spec0 7) (ix1 k))
    (fun a b => V m c (Pipeline.arrRef spec0 8) (ix2 a b)) (fun k => V m c (Pipeline.arrRef spec0 9) (ix1 k))
    (fun k => V m c (Pipeline.arrRef spec0 10) (ix1 k)) (fun k => V m c (Pipeline.arrRef spec0 11) (ix1 k))
    (fun a b => V m c (Pipeline.arrRef spec0 12) (ix2 a b)) (fun k => V m c (Pipeline.arrRef spec0 13) (ix1 k))
    (fun a b => V m c (Pipeline.arrRef spec0 14) (ix2 a b)) (fun k => V m c (Pipeline.arrRef spec0 15) (ix1 k))
    (fun k => V m c (Pipeline.arrRef spec0 16) (ix1 k)) (fun k => V m c (Pipeline.arrRef spec0 17) (ix1 k))
    (fun a b => V m c (Pipeline.arrRef spec0 18) (ix2 a b)) (fun k => V m c (Pipeline.arrRef spec0 19) (ix1 k))
    (fun a b => V m c (Pipeline.arrRef spec0 20) (ix2 a b)) (fun k => V m c (Pipeline.arrRef spec0 21) (ix1 k)) q

/-- The whole result array. -/
def G (c : Dev nD) : S100000x128.Idx → Elt Ideal .f32 := fun i => nodeCell m c (i 0) (i 1)

theorem G_ix2 (c : Dev nD) (r : Fin 100000) (q : Fin 128) : G m c (ix2 r q) = nodeCell m c r q := rfl

/-- The one-node update respects equality in each of its arguments. -/
theorem cell_congr {xt xt' : Cert.Cell.Row} {x0 x0' : Cert.Cell.Row} {ind ind' : EReal} {inv inv' : EReal} {ina ina' : Cert.Cell.Row} {outa outa' : Cert.Cell.Row} {Wr1 Wr1' : Cert.Cell.Mat} {br1 br1' : Cert.Cell.Row} {Wr2 Wr2' : Cert.Cell.Mat} {br2 br2' : Cert.Cell.Row} {gr gr' : Cert.Cell.Row} {ber ber' : Cert.Cell.Row} {Wg1 Wg1' : Cert.Cell.Mat} {bg1 bg1' : Cert.Cell.Row} {Wg2 Wg2' : Cert.Cell.Mat} {bg2 bg2' : Cert.Cell.Row} {gg gg' : Cert.Cell.Row} {beg beg' : Cert.Cell.Row} {Wf1 Wf1' : Cert.Cell.Mat} {bf1 bf1' : Cert.Cell.Row} {Wf2 Wf2' : Cert.Cell.Mat} {bf2 bf2' : Cert.Cell.Row} (q : Fin 128)
    (h_xt : xt = xt') (h_x0 : x0 = x0') (h_ind : ind = ind') (h_inv : inv = inv') (h_ina : ina = ina') (h_outa : outa = outa') (h_Wr1 : Wr1 = Wr1') (h_br1 : br1 = br1') (h_Wr2 : Wr2 = Wr2') (h_br2 : br2 = br2') (h_gr : gr = gr') (h_ber : ber = ber') (h_Wg1 : Wg1 = Wg1') (h_bg1 : bg1 = bg1') (h_Wg2 : Wg2 = Wg2') (h_bg2 : bg2 = bg2') (h_gg : gg = gg') (h_beg : beg = beg') (h_Wf1 : Wf1 = Wf1') (h_bf1 : bf1 = bf1') (h_Wf2 : Wf2 = Wf2') (h_bf2 : bf2 = bf2') :
    Cert.Cell.cell xt x0 ind inv ina outa Wr1 br1 Wr2 br2 gr ber Wg1 bg1 Wg2 bg2 gg beg Wf1 bf1 Wf2 bf2 q = Cert.Cell.cell xt' x0' ind' inv' ina' outa' Wr1' br1' Wr2' br2' gr' ber' Wg1' bg1' Wg2' bg2' gg' beg' Wf1' bf1' Wf2' bf2' q := by
  subst h_xt h_x0 h_ind h_inv h_ina h_outa h_Wr1 h_br1 h_Wr2 h_br2 h_gr h_ber h_Wg1 h_bg1 h_Wg2 h_bg2 h_gg h_beg h_Wf1 h_bf1 h_Wf2 h_bf2
  rfl

/-- The stored block of point t at (p, q). -/
theorem out_at (c : Dev nD) (t : Fin cfg0.N) (p : Fin 2000) (q : Fin 128) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 p q) = nodeCell m c (nodeAt t p) q := by
  unfold out0_22
  rw [View.canon_unit_zero hz2]
  simp only [View.ld_unit_zero (S := S2000x128) hz2, View.ld_unit_zero (S := S2000x1) hz2,
    View.ld_unit_zero (S := S128x128) hz2, View.ld_unit_zero (S := S128) hz1]
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) p q).trans ?_
  unfold nodeCell
  have r0 : rowOf (φ := .f32) (iblk m c 0 t) p = fun k => V m c (Pipeline.arrRef spec0 0) (ix2 (nodeAt t p) k) := funext fun k => blk0 m c t p k
  have r1 : rowOf (φ := .f32) (iblk m c 1 t) p = fun k => V m c (Pipeline.arrRef spec0 1) (ix2 (nodeAt t p) k) := funext fun k => blk1 m c t p k
  have r4 : rowOf (φ := .f32) (iblk m c 4 t) p = fun k => V m c (Pipeline.arrRef spec0 4) (ix2 (nodeAt t p) k) := funext fun k => blk4 m c t p k
  have r5 : rowOf (φ := .f32) (iblk m c 5 t) p = fun k => V m c (Pipeline.arrRef spec0 5) (ix2 (nodeAt t p) k) := funext fun k => blk5 m c t p k
  have r6 : matOf (φ := .f32) (iblk m c 6 t) = fun a b => V m c (Pipeline.arrRef spec0 6) (ix2 a b) := funext fun a => funext fun b => blk6 m c t a b
  have r8 : matOf (φ := .f32) (iblk m c 8 t) = fun a b => V m c (Pipeline.arrRef spec0 8) (ix2 a b) := funext fun a => funext fun b => blk8 m c t a b
  have r12 : matOf (φ := .f32) (iblk m c 12 t) = fun a b => V m c (Pipeline.arrRef spec0 12) (ix2 a b) := funext fun a => funext fun b => blk12 m c t a b
  have r14 : matOf (φ := .f32) (iblk m c 14 t) = fun a b => V m c (Pipeline.arrRef spec0 14) (ix2 a b) := funext fun a => funext fun b => blk14 m c t a b
  have r18 : matOf (φ := .f32) (iblk m c 18 t) = fun a b => V m c (Pipeline.arrRef spec0 18) (ix2 a b) := funext fun a => funext fun b => blk18 m c t a b
  have r20 : matOf (φ := .f32) (iblk m c 20 t) = fun a b => V m c (Pipeline.arrRef spec0 20) (ix2 a b) := funext fun a => funext fun b => blk20 m c t a b
  have r7 : vecOf (iblk m c 7 t) = fun k => V m c (Pipeline.arrRef spec0 7) (ix1 k) := funext fun k => blk7 m c t k
  have r9 : vecOf (iblk m c 9 t) = fun k => V m c (Pipeline.arrRef spec0 9) (ix1 k) := funext fun k => blk9 m c t k
  have r10 : vecOf (iblk m c 10 t) = fun k => V m c (Pipeline.arrRef spec0 10) (ix1 k) := funext fun k => blk10 m c t k
  have r11 : vecOf (iblk m c 11 t) = fun k => V m c (Pipeline.arrRef spec0 11) (ix1 k) := funext fun k => blk11 m c t k
  have r13 : vecOf (iblk m c 13 t) = fun k => V m c (Pipeline.arrRef spec0 13) (ix1 k) := funext fun k => blk13 m c t k
  have r15 : vecOf (iblk m c 15 t) = fun k => V m c (Pipeline.arrRef spec0 15) (ix1 k) := funext fun k => blk15 m c t k
  have r16 : vecOf (iblk m c 16 t) = fun k => V m c (Pipeline.arrRef spec0 16) (ix1 k) := funext fun k => blk16 m c t k
  have r17 : vecOf (iblk m c 17 t) = fun k => V m c (Pipeline.arrRef spec0 17) (ix1 k) := funext fun k => blk17 m c t k
  have r19 : vecOf (iblk m c 19 t) = fun k => V m c (Pipeline.arrRef spec0 19) (ix1 k) := funext fun k => blk19 m c t k
  have r21 : vecOf (iblk m c 21 t) = fun k => V m c (Pipeline.arrRef spec0 21) (ix1 k) := funext fun k => blk21 m c t k
  exact cell_congr q r0 r1 (blk2 m c t p) (blk3 m c t p) r4 r5 r6 r7 r8 r9 r10 r11 r12 r13 r14 r15 r16 r17 r18 r19 r20 r21

end Cert.KernelIdeal.Blocks

end
-- ==== Proof.KernelBlocks.lean ====
/- From the blocks the grid points write to the whole result array.

   What point t writes back is block t of one function G of the arrays the region finds, and the 50 blocks of 2000 nodes
   tile the 100000 nodes, so the result array ends holding G: the layer's update of every node. -/
import proofs.«141166_j20315195310328_1_alg».proof.Proof.KernelOut

noncomputable section

namespace Cert.KernelIdeal.Blocks

open Cert.KernelIdeal Cert.KernelIdeal.Gen Cert.KernelIdeal.Row Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- What point t writes back is block t of G. -/
theorem flushed_eq (c : Dev nD) (t : Fin cfg0.N) :
    (dats m 0 c).flushed 22 t = ((cfg0.win 22).blk t).view.read (Elt Ideal) (G m c) := by
  rw [Cert.KernelIdeal.Value.flushed22]
  funext j
  obtain ⟨p, q, rfl⟩ : ∃ (p : Fin 2000) (q : Fin 128), j = ix2 p q := ⟨j 0, j 1, eq_ix2 j⟩
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 p q) = G m c (((cfg0.win 22).blk t).view.emb (ix2 p q))
  rw [out_at, emb22, G_ix2]

/-- An index of the array is in point t's block iff each coordinate is in the block's range on its axis. -/
theorem mem_blk (t : Fin cfg0.N) (i : S100000x128.Idx) :
    i ∈ ((cfg0.win 22).blk t).view.set ↔ ∀ a : Fin 2, win0_22.index t a * S2000x128.size a ≤ (i a).val
      ∧ (i a).val < win0_22.index t a * S2000x128.size a + S2000x128.size a := by
  show i ∈ ((View.whole main_v59).slice (win0_22.rect t)).set ↔ _
  rw [View.set_slice_whole, Rect.mem_set_unit]
  exact Iff.rfl

/-- The 50 blocks tile the array: node i 0 is in block ⌊i 0 / 2000⌋. -/
theorem cover (i : S100000x128.Idx) :
    ∃ t : Fin cfg0.N, (cfg0.win 22).flush t = true ∧ i ∈ ((cfg0.win 22).blk t).view.set := by
  have hN : cfg0.N = 50 := N_0
  have hi0 : (i 0).val < 100000 := (i 0).isLt
  have hi1 : (i 1).val < 128 := (i 1).isLt
  refine ⟨⟨(i 0).val / 2000, by omega⟩, flush0_22 _, ?_⟩
  rw [mem_blk]
  obtain ⟨e0, e1⟩ := idx22 ⟨(i 0).val / 2000, by omega⟩
  intro a
  match a with
  | ⟨0, _⟩ =>
    show win0_22.index ⟨(i 0).val / 2000, _⟩ (0 : Fin 2) * 2000 ≤ (i 0).val
      ∧ (i 0).val < win0_22.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_22.index ⟨(i 0).val / 2000, _⟩ (1 : Fin 2) * 128 ≤ (i 1).val
      ∧ (i 1).val < win0_22.index ⟨(i 0).val / 2000, _⟩ (1 : Fin 2) * 128 + 128
    rw [e1]; omega

/-- The result array after the run. -/
theorem final (c : Dev nD) : (dats m 0 c).arrAt 22 cfg0.N = G m c :=
  (dats m 0 c).arrAt_eq_of_cover 22 (G m c) (fun t _ => flushed_eq m c t) (cover)

/-- The kernel's run: the result array is G, the arguments are unchanged. -/
theorem run : θ_run defs (onTc (τ := τ) (main (F := Ideal))) ⟨m, fun _ => 0, ρ⟩ fun r => ∀ c : Dev nD,
      r.2.mem ((c : Thread nD τ).loc main_v59) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m c), (h c).2⟩) (Cert.KernelIdeal.Value.run_blocks m ρ)

end Cert.KernelIdeal.Blocks

end
-- ==== Proof.RefOps0.lean ====
/- Written by the script scratch/gen_refops.py (python scratch/gen_refops.py, run in the unit directory) from
   proof/ReferenceIdeal.lean.
   Statements of window 0 of the reference's entry function as a list of host operations: the function run in order is the list run in order. -/
import proofs.«141166_j20315195310328_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0's 82 operations, in order. -/
abbrev ops0 : List (HloOp τ sig (Elt F)) :=
  [ StableHlo.unary main_arg3 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg3 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_arg0 main_arg4 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.binary main_v7 main_v7 main_v8 (mulf : (⟨S100000x128, .f32⟩ : BufTy).Contents (Elt F) → (⟨S100000x128, .f32⟩ : BufTy).Contents (Elt F) → (⟨S100000x128, .f32⟩ : BufTy).Contents (Elt F)),
    StableHlo.binary main_v8 main_v7 main_v9 (mulf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x3D372713#32),
    StableHlo.unary main_cst main_v10 (broadcastInDim S100000x128 ![] bcast_S_S100000x128 : (⟨S_, .f32⟩ : BufTy).Contents (Elt F) → (⟨S100000x128, .f32⟩ : BufTy).Contents (Elt F)),
    StableHlo.binary main_v10 main_v9 main_v11 (mulf : (⟨S100000x128, .f32⟩ : BufTy).Contents (Elt F) → (⟨S100000x128, .f32⟩ : BufTy).Contents (Elt F) → (⟨S100000x128, .f32⟩ : BufTy).Contents (Elt F)),
    StableHlo.binary main_v7 main_v11 main_v12 (addf : (⟨S100000x128, .f32⟩ : BufTy).Contents (Elt F) → (⟨S100000x128, .f32⟩ : BufTy).Contents (Elt F) → (⟨S100000x128, .f32⟩ : BufTy).Contents (Elt F)),
    StableHlo.nullary main_cst_0 (constant S_ .f32 0x3F4C422A#32),
    StableHlo.unary main_cst_0 main_v13 (broadcastInDim S100000x128 ![] bcast_S_S100000x128 : (⟨S_, .f32⟩ : BufTy).Contents (Elt F) → (⟨S100000x128, .f32⟩ : BufTy).Contents (Elt F)),
    StableHlo.binary main_v13 main_v12 main_v14 (mulf : (⟨S100000x128, .f32⟩ : BufTy).Contents (Elt F) → (⟨S100000x128, .f32⟩ : BufTy).Contents (Elt F) → (⟨S100000x128, .f32⟩ : BufTy).Contents (Elt F)),
    StableHlo.unary main_v14 main_v15 (Host.tanh : (⟨S100000x128, .f32⟩ : BufTy).Contents (Elt F) → (⟨S100000x128, .f32⟩ : BufTy).Contents (Elt F)),
    StableHlo.nullary main_cst_1 (constant S_ .f32 0x3F800000#32),
    StableHlo.unary main_cst_1 main_v16 (broadcastInDim S100000x128 ![] bcast_S_S100000x128 : (⟨S_, .f32⟩ : BufTy).Contents (Elt F) → (⟨S100000x128, .f32⟩ : BufTy).Contents (Elt F)),
    StableHlo.binary main_v16 main_v15 main_v17 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3F000000#32),
    StableHlo.unary main_cst_2 main_v18 (broadcastInDim S100000x128 ![] bcast_S_S100000x128 : (⟨S_, .f32⟩ : BufTy).Contents (Elt F) → (⟨S100000x128, .f32⟩ : BufTy).Contents (Elt F)),
    StableHlo.binary main_v18 main_v17 main_v19 (mulf : (⟨S100000x128, .f32⟩ : BufTy).Contents (Elt F) → (⟨S100000x128, .f32⟩ : BufTy).Contents (Elt F) → (⟨S100000x128, .f32⟩ : BufTy).Contents (Elt F)),
    StableHlo.binary main_v7 main_v19 main_v20 (mulf : (⟨S100000x128, .f32⟩ : BufTy).Contents (Elt F) → (⟨S100000x128, .f32⟩ : BufTy).Contents (Elt F) → (⟨S100000x128, .f32⟩ : BufTy).Contents (Elt F)),
    StableHlo.binary main_v20 main_arg6 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.binary main_v24 main_cst_3 main_v25 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)),
    StableHlo.nullary main_cst_4 (constant S_ .f32 0x43000000#32),
    StableHlo.unary main_cst_4 main_v27 (broadcastInDim S100000x1 ![] bcast_S_S100000x1 : (⟨S_, .f32⟩ : BufTy).Contents (Elt F) → (⟨S100000x1, .f32⟩ : BufTy).Contents (Elt F)),
    StableHlo.binary main_v26 main_v27 main_v28 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.TRef.nullary main_call0.cst (constant S_ .f32 0x00000000#32),
    StableHlo.TRef.binary (.of main_v24) main_call0.cst main_call0.v0 (fun x v => Host.reduceAdd x v reducesTo_S100000x128_S100000_d1 h_S_),
    StableHlo.TRef.unary main_call0.v0 main_call0.v1 (broadcastInDim S100000x1 ![0] bcast_S100000_S100000x1_0),
    StableHlo.TRef.nullary main_call0.cst_0 (constant S_ .f32 0x43000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x128 ![0, 1] bcast_S100000x1_S100000x128_0_1),
    StableHlo.TRef.binary (.of main_v24) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v28 main_v30 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v32 (broadcastInDim S100000x1 ![] bcast_S_S100000x1 : (⟨S_, .f32⟩ : BufTy).Contents (Elt F) → (⟨S100000x1, .f32⟩ : BufTy).Contents (Elt F)),
    StableHlo.binary main_v29 main_v32 main_v33 (addf : (⟨S100000x1, .f32⟩ : BufTy).Contents (Elt F) → (⟨S100000x1, .f32⟩ : BufTy).Contents (Elt F) → (⟨S100000x1, .f32⟩ : BufTy).Contents (Elt F)),
    StableHlo.unary main_v33 main_v34 (Host.sqrt : (⟨S100000x1, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v31 main_v35 main_v36 (Host.divf : (⟨S100000x128, .f32⟩ : BufTy).Contents (Elt F) → (⟨S100000x128, .f32⟩ : BufTy).Contents (Elt F) → (⟨S100000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg9 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.binary main_arg1 main_arg10 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.binary main_v46 main_v46 main_v47 (mulf : (⟨S100000x128, .f32⟩ : BufTy).Contents (Elt F) → (⟨S100000x128, .f32⟩ : BufTy).Contents (Elt F) → (⟨S100000x128, .f32⟩ : BufTy).Contents (Elt F)),
    StableHlo.binary main_v47 main_v46 main_v48 (mulf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3D372713#32),
    StableHlo.unary main_cst_6 main_v49 (broadcastInDim S100000x128 ![] bcast_S_S100000x128 : (⟨S_, .f32⟩ : BufTy).Contents (Elt F) → (⟨S100000x128, .f32⟩ : BufTy).Contents (Elt F)),
    StableHlo.binary main_v49 main_v48 main_v50 (mulf : (⟨S100000x128, .f32⟩ : BufTy).Contents (Elt F) → (⟨S100000x128, .f32⟩ : BufTy).Contents (Elt F) → (⟨S100000x128, .f32⟩ : BufTy).Contents (Elt F)) ]

set_option maxRecDepth 16384 in
set_option maxHeartbeats 4000000 in
/-- The window is that list: the called functions' bodies opened at their calls, sequencing reassociated. -/
theorem part0_eq (c : Dev nD) : main_part0 (F := F) c = seq ops0 := by
  simp only [main_part0, fn_var.body, fn_where.body, seq, bind_assoc, pure_bind]
  rfl

set_option maxRecDepth 16384 in
/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub ..⟩

end Cert.ReferenceIdeal.RefRun

end
-- ==== Proof.RefOps1.lean ====
/- Written by the script scratch/gen_refops.py (python scratch/gen_refops.py, run in the unit directory) from
   proof/ReferenceIdeal.lean.
   Statements of window 1 of the reference's entry function as a list of host operations: the function run in order is the list run in order. -/
import proofs.«141166_j20315195310328_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1's 82 operations, in order. -/
abbrev ops1 : List (HloOp τ sig (Elt F)) :=
  [ StableHlo.binary main_v46 main_v50 main_v51 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3F4C422A#32),
    StableHlo.unary main_cst_7 main_v52 (broadcastInDim S100000x128 ![] bcast_S_S100000x128 : (⟨S_, .f32⟩ : BufTy).Contents (Elt F) → (⟨S100000x128, .f32⟩ : BufTy).Contents (Elt F)),
    StableHlo.binary main_v52 main_v51 main_v53 (mulf : (⟨S100000x128, .f32⟩ : BufTy).Contents (Elt F) → (⟨S100000x128, .f32⟩ : BufTy).Contents (Elt F) → (⟨S100000x128, .f32⟩ : BufTy).Contents (Elt F)),
    StableHlo.unary main_v53 main_v54 (Host.tanh : (⟨S100000x128, .f32⟩ : BufTy).Contents (Elt F) → (⟨S100000x128, .f32⟩ : BufTy).Contents (Elt F)),
    StableHlo.nullary main_cst_8 (constant S_ .f32 0x3F800000#32),
    StableHlo.unary main_cst_8 main_v55 (broadcastInDim S100000x128 ![] bcast_S_S100000x128 : (⟨S_, .f32⟩ : BufTy).Contents (Elt F) → (⟨S100000x128, .f32⟩ : BufTy).Contents (Elt F)),
    StableHlo.binary main_v55 main_v54 main_v56 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3F000000#32),
    StableHlo.unary main_cst_9 main_v57 (broadcastInDim S100000x128 ![] bcast_S_S100000x128 : (⟨S_, .f32⟩ : BufTy).Contents (Elt F) → (⟨S100000x128, .f32⟩ : BufTy).Contents (Elt F)),
    StableHlo.binary main_v57 main_v56 main_v58 (mulf : (⟨S100000x128, .f32⟩ : BufTy).Contents (Elt F) → (⟨S100000x128, .f32⟩ : BufTy).Contents (Elt F) → (⟨S100000x128, .f32⟩ : BufTy).Contents (Elt F)),
    StableHlo.binary main_v46 main_v58 main_v59 (mulf : (⟨S100000x128, .f32⟩ : BufTy).Contents (Elt F) → (⟨S100000x128, .f32⟩ : BufTy).Contents (Elt F) → (⟨S100000x128, .f32⟩ : BufTy).Contents (Elt F)),
    StableHlo.binary main_v59 main_arg12 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v63 main_cst_10 main_v64 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x43000000#32),
    StableHlo.unary main_cst_11 main_v66 (broadcastInDim S100000x1 ![] bcast_S_S100000x1 : (⟨S_, .f32⟩ : BufTy).Contents (Elt F) → (⟨S100000x1, .f32⟩ : BufTy).Contents (Elt F)),
    StableHlo.binary main_v65 main_v66 main_v67 (Host.divf : (⟨S100000x1, .f32⟩ : BufTy).Contents (Elt F) → (⟨S100000x1, .f32⟩ : BufTy).Contents (Elt F) → (⟨S100000x1, .f32⟩ : BufTy).Contents (Elt F)),
    StableHlo.nullary main_c_12 (constantI S_ 32 0#32),
    StableHlo.TRef.nullary main_call1.cst (constant S_ .f32 0x00000000#32),
    StableHlo.TRef.binary (.of main_v63) main_call1.cst main_call1.v0 (fun x v => Host.reduceAdd x v reducesTo_S100000x128_S100000_d1 h_S_),
    StableHlo.TRef.unary main_call1.v0 main_call1.v1 (broadcastInDim S100000x1 ![0] bcast_S100000_S100000x1_0),
    StableHlo.TRef.nullary main_call1.cst_0 (constant S_ .f32 0x43000000#32),
    StableHlo.TRef.unary main_call1.cst_0 main_call1.v2 (broadcastInDim S100000x1 ![] bcast_S_S100000x1),
    StableHlo.TRef.binary main_call1.v1 main_call1.v2 main_call1.v3 Host.divf,
    StableHlo.TRef.unary main_call1.v3 main_call1.v4 (broadcastInDim S100000x128 ![0, 1] bcast_S100000x1_S100000x128_0_1),
    StableHlo.TRef.binary (.of main_v63) main_call1.v4 main_call1.v5 subf,
    StableHlo.TRef.binary main_call1.v5 main_call1.v5 main_call1.v6 mulf,
    StableHlo.TRef.unary (.of main_c_12) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S100000_d1 h_S_),
    StableHlo.TRef.unary main_call1.v9 main_call1.v10 (broadcastInDim S100000x1 ![0] bcast_S100000_S100000x1_0),
    StableHlo.TRef.unary main_call1.v8 main_call1.v11 (broadcastInDim S100000x1 ![] bcast_S_S100000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S100000x1 ![] bcast_S_S100000x1),
    StableHlo.TRef.ternary main_call1.v13 main_call1.v12 main_call1.call0.v1 main_call1.call0.v2 (fun p a b => select (broadcastInDim S100000x1 ![] bcast_S_S100000x1 p) a b),
    StableHlo.unary main_v67 main_v69 (broadcastInDim S100000x128 ![0, 1] bcast_S100000x1_S100000x128_0_1 : (⟨S100000x1, .f32⟩ : BufTy).Contents (Elt F) → (⟨S100000x128, .f32⟩ : BufTy).Contents (Elt F)),
    StableHlo.binary main_v63 main_v69 main_v70 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v71 (broadcastInDim S100000x1 ![] bcast_S_S100000x1 : (⟨S_, .f32⟩ : BufTy).Contents (Elt F) → (⟨S100000x1, .f32⟩ : BufTy).Contents (Elt F)),
    StableHlo.binary main_v68 main_v71 main_v72 (addf : (⟨S100000x1, .f32⟩ : BufTy).Contents (Elt F) → (⟨S100000x1, .f32⟩ : BufTy).Contents (Elt F) → (⟨S100000x1, .f32⟩ : BufTy).Contents (Elt F)),
    StableHlo.unary main_v72 main_v73 (Host.sqrt : (⟨S100000x1, .f32⟩ : BufTy).Contents (Elt F) → (⟨S100000x1, .f32⟩ : BufTy).Contents (Elt F)),
    StableHlo.unary main_v73 main_v74 (broadcastInDim S100000x128 ![0, 1] bcast_S100000x1_S100000x128_0_1 : (⟨S100000x1, .f32⟩ : BufTy).Contents (Elt F) → (⟨S100000x128, .f32⟩ : BufTy).Contents (Elt F)),
    StableHlo.binary main_v70 main_v74 main_v75 (Host.divf : (⟨S100000x128, .f32⟩ : BufTy).Contents (Elt F) → (⟨S100000x128, .f32⟩ : BufTy).Contents (Elt F) → (⟨S100000x128, .f32⟩ : BufTy).Contents (Elt F)),
    StableHlo.unary main_arg14 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (mulf : (⟨S100000x128, .f32⟩ : BufTy).Contents (Elt F) → (⟨S100000x128, .f32⟩ : BufTy).Contents (Elt F) → (⟨S100000x128, .f32⟩ : BufTy).Contents (Elt F)),
    StableHlo.unary main_arg15 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3F800000#32),
    StableHlo.unary main_cst_14 main_v82 (broadcastInDim S100000x1 ![] bcast_S_S100000x1 : (⟨S_, .f32⟩ : BufTy).Contents (Elt F) → (⟨S100000x1, .f32⟩ : BufTy).Contents (Elt F)),
    StableHlo.binary main_v82 main_arg2 main_v83 (subf : (⟨S100000x1, .f32⟩ : BufTy).Contents (Elt F) → (⟨S100000x1, .f32⟩ : BufTy).Contents (Elt F) → (⟨S100000x1, .f32⟩ : BufTy).Contents (Elt F)),
    StableHlo.nullary main_cst_15 (constant S_ .f32 0x3F800000#32),
    StableHlo.unary main_cst_15 main_v84 (broadcastInDim S100000x1 ![] bcast_S_S100000x1 : (⟨S_, .f32⟩ : BufTy).Contents (Elt F) → (⟨S100000x1, .f32⟩ : BufTy).Contents (Elt F)),
    StableHlo.nullary main_c_16 (constantI S_ 32 0#32),
    StableHlo.unary main_c_16 main_v85 (broadcastInDim S640000 ![] bcast_S_S640000 : (⟨S_, .i32⟩ : BufTy).Contents (Elt F) → (⟨S640000, .i32⟩ : BufTy).Contents (Elt F)),
    StableHlo.binary main_v1 main_v85 main_v86 (cmpi .slt : (⟨S640000, .i32⟩ : BufTy).Contents (Elt F) → (⟨S640000, .i32⟩ : BufTy).Contents (Elt F) → (⟨S640000, .i1⟩ : BufTy).Contents (Elt F)),
    StableHlo.nullary main_c_17 (constantI S_ 32 100000#32),
    StableHlo.unary main_c_17 main_v87 (broadcastInDim S640000 ![] bcast_S_S640000 : (⟨S_, .i32⟩ : BufTy).Contents (Elt F) → (⟨S640000, .i32⟩ : BufTy).Contents (Elt F)),
    StableHlo.binary main_v1 main_v87 main_v88 (addi : (⟨S640000, .i32⟩ : BufTy).Contents (Elt F) → (⟨S640000, .i32⟩ : BufTy).Contents (Elt F) → (⟨S640000, .i32⟩ : BufTy).Contents (Elt F)),
    StableHlo.ternary main_v86 main_v88 main_v1 main_v89 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v89 main_v90 (broadcastInDim S640000x1 ![0] bcast_S640000_S640000x1_0 : (⟨S640000, .i32⟩ : BufTy).Contents (Elt F) → (⟨S640000x1, .i32⟩ : BufTy).Contents (Elt F)),
    StableHlo.binary main_v84 main_v90 main_v91 ((fun x i => Host.gather gather_S100000x1_S640000x1_S640000x1_1_0_n_n_0_1_11 x i) : (⟨S100000x1, .f32⟩ : BufTy).Contents (Elt F) → (⟨S640000x1, .i32⟩ : BufTy).Contents (Elt F) → (⟨S640000x1, .f32⟩ : BufTy).Contents (Elt F)),
    StableHlo.nullary main_cst_18 (constant S_ .f32 0x00000000#32),
    StableHlo.unary main_cst_18 main_v92 (broadcastInDim S100000x1 ![] bcast_S_S100000x1 : (⟨S_, .f32⟩ : BufTy).Contents (Elt F) → (⟨S100000x1, .f32⟩ : BufTy).Contents (Elt F)),
    StableHlo.unary main_v3 main_v93 (broadcastInDim S640000x1 ![0] bcast_S640000_S640000x1_0 : (⟨S640000, .i32⟩ : BufTy).Contents (Elt F) → (⟨S640000x1, .i32⟩ : BufTy).Contents (Elt F)),
    StableHlo.ternary main_v92 main_v93 main_v91 main_v94 ((fun x i u => Host.scatterAdd scatter_S100000x1_S640000x1_S640000x1_1_0_0_1 x i u) : (⟨S100000x1, .f32⟩ : BufTy).Contents (Elt F) → (⟨S640000x1, .i32⟩ : BufTy).Contents (Elt F) → (⟨S640000x1, .f32⟩ : BufTy).Contents (Elt F) → (⟨S100000x1, .f32⟩ : BufTy).Contents (Elt F)),
    StableHlo.nullary main_c_19 (constantI S_ 32 0#32),
    StableHlo.unary main_c_19 main_v95 (broadcastInDim S640000 ![] bcast_S_S640000 : (⟨S_, .i32⟩ : BufTy).Contents (Elt F) → (⟨S640000, .i32⟩ : BufTy).Contents (Elt F)),
    StableHlo.binary main_v1 main_v95 main_v96 (cmpi .slt : (⟨S640000, .i32⟩ : BufTy).Contents (Elt F) → (⟨S640000, .i32⟩ : BufTy).Contents (Elt F) → (⟨S640000, .i1⟩ : BufTy).Contents (Elt F)),
    StableHlo.nullary main_c_20 (constantI S_ 32 100000#32) ]

set_option maxRecDepth 16384 in
set_option maxHeartbeats 4000000 in
/-- The window is that list: the called functions' bodies opened at their calls, sequencing reassociated. -/
theorem part1_eq (c : Dev nD) : main_part1 (F := F) c = seq ops1 := by
  simp only [main_part1, fn_var.body, fn_where.body, seq, bind_assoc, pure_bind]
  rfl

set_option maxRecDepth 16384 in
/-- Every operation of the window touches TensorCore references only. -/
theorem ops1_sub : (ops1 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub ..⟩

end Cert.ReferenceIdeal.RefRun

end
-- ==== Proof.RefOps2.lean ====
/- Written by the script scratch/gen_refops.py (python scratch/gen_refops.py, run in the unit directory) from
   proof/ReferenceIdeal.lean.
   Statements of window 2 of the reference's entry function as a list of host operations: the function run in order is the list run in order. -/
import proofs.«141166_j20315195310328_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2's 60 operations, in order. -/
abbrev ops2 : List (HloOp τ sig (Elt F)) :=
  [ StableHlo.unary main_c_20 main_v97 (broadcastInDim S640000 ![] bcast_S_S640000 : (⟨S_, .i32⟩ : BufTy).Contents (Elt F) → (⟨S640000, .i32⟩ : BufTy).Contents (Elt F)),
    StableHlo.binary main_v1 main_v97 main_v98 (addi : (⟨S640000, .i32⟩ : BufTy).Contents (Elt F) → (⟨S640000, .i32⟩ : BufTy).Contents (Elt F) → (⟨S640000, .i32⟩ : BufTy).Contents (Elt F)),
    StableHlo.ternary main_v96 main_v98 main_v1 main_v99 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v99 main_v100 (broadcastInDim S640000x1 ![0] bcast_S640000_S640000x1_0 : (⟨S640000, .i32⟩ : BufTy).Contents (Elt F) → (⟨S640000x1, .i32⟩ : BufTy).Contents (Elt F)),
    StableHlo.binary main_v83 main_v100 main_v101 ((fun x i => Host.gather gather_S100000x1_S640000x1_S640000x1_1_0_n_n_0_1_11 x i) : (⟨S100000x1, .f32⟩ : BufTy).Contents (Elt F) → (⟨S640000x1, .i32⟩ : BufTy).Contents (Elt F) → (⟨S640000x1, .f32⟩ : BufTy).Contents (Elt F)),
    StableHlo.nullary main_cst_21 (constant S_ .f32 0x00000000#32),
    StableHlo.unary main_cst_21 main_v102 (broadcastInDim S100000x1 ![] bcast_S_S100000x1 : (⟨S_, .f32⟩ : BufTy).Contents (Elt F) → (⟨S100000x1, .f32⟩ : BufTy).Contents (Elt F)),
    StableHlo.unary main_v3 main_v103 (broadcastInDim S640000x1 ![0] bcast_S640000_S640000x1_0 : (⟨S640000, .i32⟩ : BufTy).Contents (Elt F) → (⟨S640000x1, .i32⟩ : BufTy).Contents (Elt F)),
    StableHlo.ternary main_v102 main_v103 main_v101 main_v104 ((fun x i u => Host.scatterAdd scatter_S100000x1_S640000x1_S640000x1_1_0_0_1 x i u) : (⟨S100000x1, .f32⟩ : BufTy).Contents (Elt F) → (⟨S640000x1, .i32⟩ : BufTy).Contents (Elt F) → (⟨S640000x1, .f32⟩ : BufTy).Contents (Elt F) → (⟨S100000x1, .f32⟩ : BufTy).Contents (Elt F)),
    StableHlo.binary main_arg2 main_v94 main_v105 (mulf : (⟨S100000x1, .f32⟩ : BufTy).Contents (Elt F) → (⟨S100000x1, .f32⟩ : BufTy).Contents (Elt F) → (⟨S100000x1, .f32⟩ : BufTy).Contents (Elt F)),
    StableHlo.binary main_v83 main_arg2 main_v106 (subf : (⟨S100000x1, .f32⟩ : BufTy).Contents (Elt F) → (⟨S100000x1, .f32⟩ : BufTy).Contents (Elt F) → (⟨S100000x1, .f32⟩ : BufTy).Contents (Elt F)),
    StableHlo.binary main_v106 main_v104 main_v107 (mulf : (⟨S100000x1, .f32⟩ : BufTy).Contents (Elt F) → (⟨S100000x1, .f32⟩ : BufTy).Contents (Elt F) → (⟨S100000x1, .f32⟩ : BufTy).Contents (Elt F)),
    StableHlo.binary main_v105 main_v107 main_v108 (addf : (⟨S100000x1, .f32⟩ : BufTy).Contents (Elt F) → (⟨S100000x1, .f32⟩ : BufTy).Contents (Elt F) → (⟨S100000x1, .f32⟩ : BufTy).Contents (Elt F)),
    StableHlo.nullary main_cst_22 (constant S_ .f32 0x3F800000#32),
    StableHlo.unary main_cst_22 main_v109 (broadcastInDim S100000x1 ![] bcast_S_S100000x1 : (⟨S_, .f32⟩ : BufTy).Contents (Elt F) → (⟨S100000x1, .f32⟩ : BufTy).Contents (Elt F)),
    StableHlo.binary main_v108 main_v109 main_v110 (addf : (⟨S100000x1, .f32⟩ : BufTy).Contents (Elt F) → (⟨S100000x1, .f32⟩ : BufTy).Contents (Elt F) → (⟨S100000x1, .f32⟩ : BufTy).Contents (Elt F)),
    StableHlo.unary main_v110 main_v111 (Host.sqrt : (⟨S100000x1, .f32⟩ : BufTy).Contents (Elt F) → (⟨S100000x1, .f32⟩ : BufTy).Contents (Elt F)),
    StableHlo.nullary main_cst_23 (constant S_ .f32 0x3F800000#32),
    StableHlo.unary main_cst_23 main_v112 (broadcastInDim S100000x1 ![] bcast_S_S100000x1 : (⟨S_, .f32⟩ : BufTy).Contents (Elt F) → (⟨S100000x1, .f32⟩ : BufTy).Contents (Elt F)),
    StableHlo.binary main_v112 main_v111 main_v113 (Host.divf : (⟨S100000x1, .f32⟩ : BufTy).Contents (Elt F) → (⟨S100000x1, .f32⟩ : BufTy).Contents (Elt F) → (⟨S100000x1, .f32⟩ : BufTy).Contents (Elt F)),
    StableHlo.binary main_v83 main_v113 main_v114 (mulf : (⟨S100000x1, .f32⟩ : BufTy).Contents (Elt F) → (⟨S100000x1, .f32⟩ : BufTy).Contents (Elt F) → (⟨S100000x1, .f32⟩ : BufTy).Contents (Elt F)),
    StableHlo.nullary main_cst_24 (constant S_ .f32 0x3F800000#32),
    StableHlo.unary main_cst_24 main_v115 (broadcastInDim S100000x1 ![] bcast_S_S100000x1 : (⟨S_, .f32⟩ : BufTy).Contents (Elt F) → (⟨S100000x1, .f32⟩ : BufTy).Contents (Elt F)),
    StableHlo.binary main_v115 main_v83 main_v116 (addf : (⟨S100000x1, .f32⟩ : BufTy).Contents (Elt F) → (⟨S100000x1, .f32⟩ : BufTy).Contents (Elt F) → (⟨S100000x1, .f32⟩ : BufTy).Contents (Elt F)),
    StableHlo.unary main_v116 main_v117 (broadcastInDim S100000x128 ![0, 1] bcast_S100000x1_S100000x128_0_1 : (⟨S100000x1, .f32⟩ : BufTy).Contents (Elt F) → (⟨S100000x128, .f32⟩ : BufTy).Contents (Elt F)),
    StableHlo.binary main_v117 main_arg0 main_v118 (mulf : (⟨S100000x128, .f32⟩ : BufTy).Contents (Elt F) → (⟨S100000x128, .f32⟩ : BufTy).Contents (Elt F) → (⟨S100000x128, .f32⟩ : BufTy).Contents (Elt F)),
    StableHlo.unary main_v113 main_v119 (broadcastInDim S100000x128 ![0, 1] bcast_S100000x1_S100000x128_0_1 : (⟨S100000x1, .f32⟩ : BufTy).Contents (Elt F) → (⟨S100000x128, .f32⟩ : BufTy).Contents (Elt F)),
    StableHlo.binary main_v118 main_v119 main_v120 (mulf : (⟨S100000x128, .f32⟩ : BufTy).Contents (Elt F) → (⟨S100000x128, .f32⟩ : BufTy).Contents (Elt F) → (⟨S100000x128, .f32⟩ : BufTy).Contents (Elt F)),
    StableHlo.nullary main_c_25 (constantI S_ 32 0#32),
    StableHlo.unary main_c_25 main_v121 (broadcastInDim S640000 ![] bcast_S_S640000 : (⟨S_, .i32⟩ : BufTy).Contents (Elt F) → (⟨S640000, .i32⟩ : BufTy).Contents (Elt F)),
    StableHlo.binary main_v1 main_v121 main_v122 (cmpi .slt : (⟨S640000, .i32⟩ : BufTy).Contents (Elt F) → (⟨S640000, .i32⟩ : BufTy).Contents (Elt F) → (⟨S640000, .i1⟩ : BufTy).Contents (Elt F)),
    StableHlo.nullary main_c_26 (constantI S_ 32 100000#32),
    StableHlo.unary main_c_26 main_v123 (broadcastInDim S640000 ![] bcast_S_S640000 : (⟨S_, .i32⟩ : BufTy).Contents (Elt F) → (⟨S640000, .i32⟩ : BufTy).Contents (Elt F)),
    StableHlo.binary main_v1 main_v123 main_v124 (addi : (⟨S640000, .i32⟩ : BufTy).Contents (Elt F) → (⟨S640000, .i32⟩ : BufTy).Contents (Elt F) → (⟨S640000, .i32⟩ : BufTy).Contents (Elt F)),
    StableHlo.ternary main_v122 main_v124 main_v1 main_v125 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v125 main_v126 (broadcastInDim S640000x1 ![0] bcast_S640000_S640000x1_0 : (⟨S640000, .i32⟩ : BufTy).Contents (Elt F) → (⟨S640000x1, .i32⟩ : BufTy).Contents (Elt F)),
    StableHlo.binary main_v120 main_v126 main_v127 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_27 (constant S_ .f32 0x00000000#32),
    StableHlo.unary main_cst_27 main_v128 (broadcastInDim S100000x128 ![] bcast_S_S100000x128 : (⟨S_, .f32⟩ : BufTy).Contents (Elt F) → (⟨S100000x128, .f32⟩ : BufTy).Contents (Elt F)),
    StableHlo.unary main_v3 main_v129 (broadcastInDim S640000x1 ![0] bcast_S640000_S640000x1_0 : (⟨S640000, .i32⟩ : BufTy).Contents (Elt F) → (⟨S640000x1, .i32⟩ : BufTy).Contents (Elt F)),
    StableHlo.ternary main_v128 main_v129 main_v127 main_v130 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_v114 main_v131 (broadcastInDim S100000x128 ![0, 1] bcast_S100000x1_S100000x128_0_1 : (⟨S100000x1, .f32⟩ : BufTy).Contents (Elt F) → (⟨S100000x128, .f32⟩ : BufTy).Contents (Elt F)),
    StableHlo.binary main_v131 main_v130 main_v132 (mulf : (⟨S100000x128, .f32⟩ : BufTy).Contents (Elt F) → (⟨S100000x128, .f32⟩ : BufTy).Contents (Elt F) → (⟨S100000x128, .f32⟩ : BufTy).Contents (Elt F)),
    StableHlo.binary main_arg2 main_v113 main_v133 (mulf : (⟨S100000x1, .f32⟩ : BufTy).Contents (Elt F) → (⟨S100000x1, .f32⟩ : BufTy).Contents (Elt F) → (⟨S100000x1, .f32⟩ : BufTy).Contents (Elt F)),
    StableHlo.unary main_v133 main_v134 (broadcastInDim S100000x128 ![0, 1] bcast_S100000x1_S100000x128_0_1 : (⟨S100000x1, .f32⟩ : BufTy).Contents (Elt F) → (⟨S100000x128, .f32⟩ : BufTy).Contents (Elt F)),
    StableHlo.binary main_v42 main_v134 main_v135 (mulf : (⟨S100000x128, .f32⟩ : BufTy).Contents (Elt F) → (⟨S100000x128, .f32⟩ : BufTy).Contents (Elt F) → (⟨S100000x128, .f32⟩ : BufTy).Contents (Elt F)),
    StableHlo.unary main_v83 main_v136 (broadcastInDim S100000x128 ![0, 1] bcast_S100000x1_S100000x128_0_1 : (⟨S100000x1, .f32⟩ : BufTy).Contents (Elt F) → (⟨S100000x128, .f32⟩ : BufTy).Contents (Elt F)),
    StableHlo.binary main_v136 main_arg0 main_v137 (mulf : (⟨S100000x128, .f32⟩ : BufTy).Contents (Elt F) → (⟨S100000x128, .f32⟩ : BufTy).Contents (Elt F) → (⟨S100000x128, .f32⟩ : BufTy).Contents (Elt F)),
    StableHlo.unary main_v113 main_v138 (broadcastInDim S100000x128 ![0, 1] bcast_S100000x1_S100000x128_0_1 : (⟨S100000x1, .f32⟩ : BufTy).Contents (Elt F) → (⟨S100000x128, .f32⟩ : BufTy).Contents (Elt F)),
    StableHlo.binary main_v137 main_v138 main_v139 (mulf : (⟨S100000x128, .f32⟩ : BufTy).Contents (Elt F) → (⟨S100000x128, .f32⟩ : BufTy).Contents (Elt F) → (⟨S100000x128, .f32⟩ : BufTy).Contents (Elt F)),
    StableHlo.nullary main_c_28 (constantI S_ 32 0#32),
    StableHlo.unary main_c_28 main_v140 (broadcastInDim S640000 ![] bcast_S_S640000 : (⟨S_, .i32⟩ : BufTy).Contents (Elt F) → (⟨S640000, .i32⟩ : BufTy).Contents (Elt F)),
    StableHlo.binary main_v1 main_v140 main_v141 (cmpi .slt : (⟨S640000, .i32⟩ : BufTy).Contents (Elt F) → (⟨S640000, .i32⟩ : BufTy).Contents (Elt F) → (⟨S640000, .i1⟩ : BufTy).Contents (Elt F)),
    StableHlo.nullary main_c_29 (constantI S_ 32 100000#32),
    StableHlo.unary main_c_29 main_v142 (broadcastInDim S640000 ![] bcast_S_S640000 : (⟨S_, .i32⟩ : BufTy).Contents (Elt F) → (⟨S640000, .i32⟩ : BufTy).Contents (Elt F)),
    StableHlo.binary main_v1 main_v142 main_v143 (addi : (⟨S640000, .i32⟩ : BufTy).Contents (Elt F) → (⟨S640000, .i32⟩ : BufTy).Contents (Elt F) → (⟨S640000, .i32⟩ : BufTy).Contents (Elt F)),
    StableHlo.ternary main_v141 main_v143 main_v1 main_v144 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v144 main_v145 (broadcastInDim S640000x1 ![0] bcast_S640000_S640000x1_0 : (⟨S640000, .i32⟩ : BufTy).Contents (Elt F) → (⟨S640000x1, .i32⟩ : BufTy).Contents (Elt F)),
    StableHlo.binary main_v139 main_v145 main_v146 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_30 (constant S_ .f32 0x00000000#32) ]

set_option maxRecDepth 16384 in
set_option maxHeartbeats 4000000 in
/-- The window is that list. -/
theorem part2_eq (c : Dev nD) : main_part2 (F := F) c = seq ops2 := rfl

set_option maxRecDepth 16384 in
/-- Every operation of the window touches TensorCore references only. -/
theorem ops2_sub : (ops2 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

end Cert.ReferenceIdeal.RefRun

end
-- ==== Proof.RefOps3.lean ====
/- Written by the script scratch/gen_refops.py (python scratch/gen_refops.py, run in the unit directory) from
   proof/ReferenceIdeal.lean.
   Statements of window 3 of the reference's entry function as a list of host operations: the function run in order is the list run in order. -/
import proofs.«141166_j20315195310328_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3's 31 operations, in order. -/
abbrev ops3 : List (HloOp τ sig (Elt F)) :=
  [ StableHlo.unary main_cst_30 main_v147 (broadcastInDim S100000x128 ![] bcast_S_S100000x128 : (⟨S_, .f32⟩ : BufTy).Contents (Elt F) → (⟨S100000x128, .f32⟩ : BufTy).Contents (Elt F)),
    StableHlo.unary main_v3 main_v148 (broadcastInDim S640000x1 ![0] bcast_S640000_S640000x1_0 : (⟨S640000, .i32⟩ : BufTy).Contents (Elt F) → (⟨S640000x1, .i32⟩ : BufTy).Contents (Elt F)),
    StableHlo.ternary main_v147 main_v148 main_v146 main_v149 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.binary main_v135 main_v149 main_v150 (mulf : (⟨S100000x128, .f32⟩ : BufTy).Contents (Elt F) → (⟨S100000x128, .f32⟩ : BufTy).Contents (Elt F) → (⟨S100000x128, .f32⟩ : BufTy).Contents (Elt F)),
    StableHlo.binary main_v132 main_v150 main_v151 (addf : (⟨S100000x128, .f32⟩ : BufTy).Contents (Elt F) → (⟨S100000x128, .f32⟩ : BufTy).Contents (Elt F) → (⟨S100000x128, .f32⟩ : BufTy).Contents (Elt F)),
    StableHlo.binary main_v151 main_arg16 main_v152 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v154 main_v155 (addf : (⟨S100000x128, .f32⟩ : BufTy).Contents (Elt F) → (⟨S100000x128, .f32⟩ : BufTy).Contents (Elt F) → (⟨S100000x128, .f32⟩ : BufTy).Contents (Elt F)),
    StableHlo.binary main_v155 main_v155 main_v156 (mulf : (⟨S100000x128, .f32⟩ : BufTy).Contents (Elt F) → (⟨S100000x128, .f32⟩ : BufTy).Contents (Elt F) → (⟨S100000x128, .f32⟩ : BufTy).Contents (Elt F)),
    StableHlo.binary main_v156 main_v155 main_v157 (mulf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3D372713#32),
    StableHlo.unary main_cst_31 main_v158 (broadcastInDim S100000x128 ![] bcast_S_S100000x128 : (⟨S_, .f32⟩ : BufTy).Contents (Elt F) → (⟨S100000x128, .f32⟩ : BufTy).Contents (Elt F)),
    StableHlo.binary main_v158 main_v157 main_v159 (mulf : (⟨S100000x128, .f32⟩ : BufTy).Contents (Elt F) → (⟨S100000x128, .f32⟩ : BufTy).Contents (Elt F) → (⟨S100000x128, .f32⟩ : BufTy).Contents (Elt F)),
    StableHlo.binary main_v155 main_v159 main_v160 (addf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3F4C422A#32),
    StableHlo.unary main_cst_32 main_v161 (broadcastInDim S100000x128 ![] bcast_S_S100000x128 : (⟨S_, .f32⟩ : BufTy).Contents (Elt F) → (⟨S100000x128, .f32⟩ : BufTy).Contents (Elt F)),
    StableHlo.binary main_v161 main_v160 main_v162 (mulf : (⟨S100000x128, .f32⟩ : BufTy).Contents (Elt F) → (⟨S100000x128, .f32⟩ : BufTy).Contents (Elt F) → (⟨S100000x128, .f32⟩ : BufTy).Contents (Elt F)),
    StableHlo.unary main_v162 main_v163 (Host.tanh : (⟨S100000x128, .f32⟩ : BufTy).Contents (Elt F) → (⟨S100000x128, .f32⟩ : BufTy).Contents (Elt F)),
    StableHlo.nullary main_cst_33 (constant S_ .f32 0x3F800000#32),
    StableHlo.unary main_cst_33 main_v164 (broadcastInDim S100000x128 ![] bcast_S_S100000x128 : (⟨S_, .f32⟩ : BufTy).Contents (Elt F) → (⟨S100000x128, .f32⟩ : BufTy).Contents (Elt F)),
    StableHlo.binary main_v164 main_v163 main_v165 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3F000000#32),
    StableHlo.unary main_cst_34 main_v166 (broadcastInDim S100000x128 ![] bcast_S_S100000x128 : (⟨S_, .f32⟩ : BufTy).Contents (Elt F) → (⟨S100000x128, .f32⟩ : BufTy).Contents (Elt F)),
    StableHlo.binary main_v166 main_v165 main_v167 (mulf : (⟨S100000x128, .f32⟩ : BufTy).Contents (Elt F) → (⟨S100000x128, .f32⟩ : BufTy).Contents (Elt F) → (⟨S100000x128, .f32⟩ : BufTy).Contents (Elt F)),
    StableHlo.binary main_v155 main_v167 main_v168 (mulf : (⟨S100000x128, .f32⟩ : BufTy).Contents (Elt F) → (⟨S100000x128, .f32⟩ : BufTy).Contents (Elt F) → (⟨S100000x128, .f32⟩ : BufTy).Contents (Elt F)),
    StableHlo.binary main_v168 main_arg18 main_v169 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg19 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v171 main_v172 (addf : (⟨S100000x128, .f32⟩ : BufTy).Contents (Elt F) → (⟨S100000x128, .f32⟩ : BufTy).Contents (Elt F) → (⟨S100000x128, .f32⟩ : BufTy).Contents (Elt F)),
    StableHlo.binary main_v172 main_v81 main_v173 (addf : (⟨S100000x128, .f32⟩ : BufTy).Contents (Elt F) → (⟨S100000x128, .f32⟩ : BufTy).Contents (Elt F) → (⟨S100000x128, .f32⟩ : BufTy).Contents (Elt F)) ]

set_option maxRecDepth 16384 in
set_option maxHeartbeats 4000000 in
/-- The window is that list. -/
theorem part3_eq (c : Dev nD) : main_part3 (F := F) c = seq ops3 := rfl

set_option maxRecDepth 16384 in
/-- Every operation of the window touches TensorCore references only. -/
theorem ops3_sub : (ops3 : List (HloOp τ sig (Elt F))).Forall fun op => op.bufs ⊆ tcRefs τ sig :=
  ⟨unary_bufs_sub .., unary_bufs_sub .., ternary_bufs_sub .., binary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

end Cert.ReferenceIdeal.RefRun

end
-- ==== Proof.RefRun.lean ====
/- Written by the script scratch/gen_refops.py (python scratch/gen_refops.py, run in the unit directory) from
   proof/ReferenceIdeal.lean.
   The reference's entry function is its four windows in order, so its run is the run of the concatenated list: every weakly fair execution terminates with each buffer at the fold of the operations over the launch contents. -/
import proofs.«141166_j20315195310328_1_alg».proof.Proof.Gen.ReferenceIdeal
import Idealize.ShloMosaic.Lib.StableHlo.Run
import proofs.«141166_j20315195310328_1_alg».proof.Proof.RefOps0
import proofs.«141166_j20315195310328_1_alg».proof.Proof.RefOps1
import proofs.«141166_j20315195310328_1_alg».proof.Proof.RefOps2
import proofs.«141166_j20315195310328_1_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Contents after two lists in order: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- All the operations, in order. -/
def ops : List (HloOp τ sig (Elt F)) := ops0 ++ (ops1 ++ (ops2 ++ ops3))

theorem main_eq (c : Dev nD) : main (F := F) c = seq ops := by
  unfold ops
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  rw [List.forall_append, List.forall_append, List.forall_append]
  exact ⟨ops0_sub, ops1_sub, ops2_sub, ops3_sub⟩

/-- Every weakly fair execution of the reference terminates, and every TensorCore buffer ends at the fold of the operations
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/- The reference's result as a composition of whole-array stages.

   The reference applies, to arrays of 100000 nodes at once, the same layer: two perceptron branches each followed by row
   normalisation (the variance computed by a library routine whose divisor is the width minus a correction count of zero,
   guarded by a selection that always takes the quotient), the inverse square-root degree from two neighbour counts, two
   neighbour sums of scaled features (each a gather of source rows followed by an accumulating scatter into destination
   rows), the mixed row, and the output perceptron plus the second branch. Each stage is named here in the spelling the
   program uses, and the program's fold over its operation list is shown to end, at the result buffer, in their
   composition applied to the argument arrays. -/
import proofs.«141166_j20315195310328_1_alg».proof.Proof.RefRun
import Idealize.ShloMosaic.PureOps.Ideal

noncomputable section

namespace Cert.ReferenceIdeal.Stages

open Cert.ReferenceIdeal Cert.ReferenceIdeal.Gen Cert.ReferenceIdeal.RefRun Idealize.ShloMosaic Idealize.ShloMosaic.TcCoe
  Idealize.SL.Sem Idealize.ShloMosaic.StableHlo

abbrev Big := FVec Ideal S100000x128 .f32
abbrev Col := FVec Ideal S100000x1 .f32
abbrev Wt := FVec Ideal S128x128 .f32
abbrev Bias := FVec Ideal S128 .f32
abbrev Edges := IVec S640000 32

/-- A float constant spread over all nodes and features, or over all nodes. -/
def splatBig (w : BitVec 32) : Big := broadcastInDim S100000x128 ![] bcast_S_S100000x128 (constant (F := Ideal) S_ .f32 w)
def splatCol (w : BitVec 32) : Col := broadcastInDim S100000x1 ![] bcast_S_S100000x1 (constant (F := Ideal) S_ .f32 w)

/-- A bias row repeated for every node; a per-node column repeated over the features. -/
def rowsOf (b : Bias) : Big :=
  broadcastInDim S100000x128 ![0, 1] bcast_S1x128_S100000x128_0_1 (broadcastInDim S1x128 ![1] bcast_S128_S1x128_1 b)
def overFeatures (x : Col) : Big := broadcastInDim S100000x128 ![0, 1] bcast_S100000x1_S100000x128_0_1 x

/-- A dense layer. -/
def dense (X : Big) (W : Wt) (b : Bias) : Big :=
  addf (Host.dotGeneral dot_S100000x128_S128x128_S100000x128_1_0_0_1_n_n none X W) (rowsOf b)

/-- The tanh form of the Gaussian error linear unit. -/
def gelu (Z : Big) : Big :=
  mulf Z (mulf (splatBig 0x3F000000#32) (addf (splatBig 0x3F800000#32)
    (Host.tanh (mulf (splatBig 0x3F4C422A#32) (addf Z (mulf (splatBig 0x3D372713#32) (mulf (mulf Z Z) Z)))))))

def mlp (X : Big) (W1 : Wt) (b1 : Bias) (W2 : Wt) (b2 : Bias) : Big := dense (gelu (dense X W1 b1)) W2 b2

/-- Row sums as a column, and the row mean. -/
def rowSumCol (Z : Big) : Col :=
  broadcastInDim S100000x1 ![0] bcast_S100000_S100000x1_0
    (Host.reduceAdd Z (constant (F := Ideal) S_ .f32 0x00000000#32) reducesTo_S100000x128_S100000_d1 h_S_)
def meanCol (Z : Big) : Col := Host.divf (rowSumCol Z) (splatCol 0x43000000#32)

/-- The library variance: the divisor is the width minus the (zero) correction count, and the result is selected
    against a not-a-number constant by whether that divisor is positive. -/
def countS : FVec Ideal S_ .f32 := subf (constant (F := Ideal) S_ .f32 0x43000000#32) (sitofp .f32 (constantI S_ 32 0#32))
def centred (Z : Big) : Big := subf Z (overFeatures (meanCol Z))
def varRaw (Z : Big) : Col :=
  Host.divf (rowSumCol (mulf (centred Z) (centred Z))) (broadcastInDim S100000x1 ![] bcast_S_S100000x1 countS)
def varCol (Z : Big) : Col :=
  select (broadcastInDim S100000x1 ![] bcast_S_S100000x1 (cmpf .ogt countS (constant (F := Ideal) S_ .f32 0x00000000#32)))
    (varRaw Z) (broadcastInDim S100000x1 ![] bcast_S_S100000x1 (id (constant (F := Ideal) S_ .f32 0x7FC00000#32)))

/-- Row normalisation with scale and shift, by a quotient by the square root. -/
def layerNorm (Z : Big) (g b : Bias) : Big :=
  addf (mulf (Host.divf (subf Z (overFeatures (meanCol Z)))
    (overFeatures (Host.sqrt (addf (varCol Z) (splatCol 0x3727C5AC#32))))) (rowsOf g)) (rowsOf b)

def branch (X : Big) (W1 : Wt) (b1 : Bias) (W2 : Wt) (b2 g be : Bias) : Big := layerNorm (mlp X W1 b1 W2 b2) g be

/-- Source and destination node of each edge. -/
def srcOf (ei : IVec S2x640000 32) : Edges :=
  shapeCast _ (extractStridedSlice S1x640000 ![0, 0] ei slices_S2x640000_S1x640000_0_0) shapeCasts_S1x640000_S640000
def dstOf (ei : IVec S2x640000 32) : Edges :=
  shapeCast _ (extractStridedSlice S1x640000 ![1, 0] ei slices_S2x640000_S1x640000_1_0) shapeCasts_S1x640000_S640000

/-- The gather's start indices: negative words shifted up by the node count, as a column. -/
def wrapCol (s : Edges) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 100000#32))) s)
def asCol (d : Edges) : IVec S640000x1 32 := broadcastInDim S640000x1 ![0] bcast_S640000_S640000x1_0 d

/-- The sum over incoming edges of the source node's value: for a per-node column, and for a feature matrix. -/
def aggCol (x : Col) (s d : Edges) : Col :=
  Host.scatterAdd scatter_S100000x1_S640000x1_S640000x1_1_0_0_1 (splatCol 0x00000000#32) (asCol d)
    (Host.gather gather_S100000x1_S640000x1_S640000x1_1_0_n_n_0_1_11 x (wrapCol s))
def aggBig (y : Big) (s d : Edges) : Big :=
  Host.scatterAdd scatter_S100000x128_S640000x1_S640000x128_1_0_0_1 (splatBig 0x00000000#32) (asCol d)
    (Host.gather gather_S100000x128_S640000x1_S640000x128_1_0_n_n_0_1_1128 y (wrapCol s))

/-- The interior indicator and the inverse square-root degree. -/
def interior (ind : Col) : Col := subf (splatCol 0x3F800000#32) ind
def invSqrtDeg (ind : Col) (s d : Edges) : Col :=
  Host.divf (splatCol 0x3F800000#32) (Host.sqrt (addf (addf (mulf ind (aggCol (splatCol 0x3F800000#32) s d))
    (mulf (subf (interior ind) ind) (aggCol (interior ind) s d))) (splatCol 0x3F800000#32)))

/-- The two scaled feature matrices that are summed over neighbours. -/
def scaledIn (ind : Col) (xt : Big) (inv : Col) : Big :=
  mulf (mulf (overFeatures (addf (splatCol 0x3F800000#32) (interior ind))) xt) (overFeatures inv)
def scaledOut (ind : Col) (xt : Big) (inv : Col) : Big := mulf (mulf (overFeatures (interior ind)) xt) (overFeatures inv)

/-- The mixed rows. -/
def mixed (ind inv : Col) (ina outa rate : Big) : Big :=
  addf (mulf (overFeatures (mulf (interior ind) inv)) ina) (mulf (mulf rate (overFeatures (mulf ind inv))) outa)

/-- The whole layer. -/
def layer (xt x0 : Big) (ind : Col) (ei : IVec S2x640000 32)
    (Wr1 : Wt) (br1 : Bias) (Wr2 : Wt) (br2 gr ber : Bias) (Wg1 : Wt) (bg1 : Bias) (Wg2 : Wt) (bg2 gg beg : Bias)
    (Wf1 : Wt) (bf1 : Bias) (Wf2 : Wt) (bf2 : Bias) : Big :=
  addf (mlp (mixed ind (invSqrtDeg ind (srcOf ei) (dstOf ei))
      (aggBig (scaledIn ind xt (invSqrtDeg ind (srcOf ei) (dstOf ei))) (srcOf ei) (dstOf ei))
      (aggBig (scaledOut ind xt (invSqrtDeg ind (srcOf ei) (dstOf ei))) (srcOf ei) (dstOf ei))
      (branch xt Wr1 br1 Wr2 br2 gr ber)) Wf1 bf1 Wf2 bf2)
    (branch x0 Wg1 bg1 Wg2 bg2 gg beg)

attribute [local irreducible] Host.reduceAdd Host.gather Host.scatterAdd in
set_option maxRecDepth 65536 in
set_option maxHeartbeats 64000000 in
/-- The fold of the reference's operations, at the result buffer, is the layer of the argument arrays. -/
theorem result_eq (V : Valuation τ sig (Elt Ideal)) :
    after (ops (F := Ideal)) V (main_v173 : DevRef τ sig)
      = layer (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))
          (V (main_arg18 : DevRef τ sig)) (V (main_arg19 : DevRef τ sig)) := by
  unfold ops
  rw [after_append, after_append, after_append]
  after_results_simp
  rfl

end Cert.ReferenceIdeal.Stages

end
-- ==== Proof.LibRowGatherScatter.lean ====
/-
  `x[idx]` along axis 0 and its transpose, the accumulating scatter along axis 0, read at an index.

  A gather of whole rows: operand `[N, W]` (or a flat `[N]`), start indices `[E, 1]`, result `[E, W]` (or `[E]`).
  Result row `e` is operand row `idx[e, 0]`, read as a signed integer and clamped into `[0, N - 1]`.
  A scatter-add of whole rows: operand `[N, W]` (or `[N]`), scatter indices `[E, 1]`, updates `[E, W]` (or `[E]`).
  Operand row `i` receives the sum of the update rows `e` with `idx[e, 0] = i` as a signed integer; an update whose index
  is negative or at least `N` lands nowhere.
  Last, the index word after the usual wrap of negative indices (`w < 0 ? w + N : w`): where the raw word already names a
  row `i < N`, the wrapped word clamps to the same `i` — so a gather through wrapped indices and a scatter through raw
  ones speak of the same row whenever the scatter keeps the update.
-/
import Idealize.ShloMosaic.PureOps.Ideal
import Idealize.ShloMosaic.Lib.ValueIdx

noncomputable section

namespace Idealize.ShloMosaic.RowIndex

open Idealize.ShloMosaic Idealize.ShloMosaic.ValueIdx

variable {α : Type}

/-! ## Dimension numbers -/

/-- Gather of rows of `[N, W]` at `[E, 1]` start indices. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Gather of entries of a flat `[N]` at `[E, 1]` start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of rows `[E, W]` into `[N, W]` at `[E, 1]` scatter indices. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- Scatter of entries `[E]` into a flat `[N]` at `[E, 1]` scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row a start-index word names after clamping into `[0, N - 1]`. -/
def clampRow (N : Nat) (hN : 0 < N) {w : Nat} (b : BitVec w) : Fin N := ⟨min b.toInt.toNat (N - 1), by omega⟩

/-! ## The gathers read at an index -/

/-- The row gather read at `(e, k)`: the operand at row `idx[e, 0]` (read signed, clamped into `[0, N - 1]`), column `k`. -/
theorem rowGather_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N E W wf) x idx (ix2 e k) = x (ix2 (clampRow N hN (idx (ix2 e 0))) k) := by
  unfold Host.gather
  congr 1
  funext a
  match a with
  | ⟨0, _⟩ =>
    refine Fin.ext ?_
    show (rowGatherDims N E W wf).start (ix2 e k) idx 0 + (rowGatherDims N E W wf).batchCoord (ix2 e k) 0
      + (rowGatherDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e k) ⟨List.idxOf (0 : Fin 2) (rowGatherDims N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    refine Fin.ext ?_
    show (rowGatherDims N E W wf).start (ix2 e k) idx 1 + (rowGatherDims N E W wf).batchCoord (ix2 e k) 1
      + (rowGatherDims N E W wf).offCoord (ix2 e k) 1 = _
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨show (1 : Fin 2) ∉ ([0] : List (Fin 2)) by decide, List.not_mem_nil⟩)]
    simp only [Nat.zero_add, Nat.add_zero]
    rfl

/-- The flat gather read at `e`: the operand at entry `idx[e, 0]` (read signed, clamped into `[0, N - 1]`). -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulating scatters read at an index -/

/-- Where an update row lands: on axis 0 the window starts at the signed index word `idx[j 0, 0]`. -/
theorem rowScatter_start0 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 0 = (idx (ix2 (j 0) 0)).toInt := by
  unfold ScatterDims.start
  rw [dif_pos (show (0 : Fin 2) ∈ (rowScatterDims N E W wf).scatterDimsToOperandDims from List.mem_singleton.mpr rfl)]
  have hsi : (rowScatterDims N E W wf).siIdx j ⟨List.idxOf (0 : Fin 2) (rowScatterDims N E W wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On axis 1 no index word is read: the window starts at `0`. -/
theorem rowScatter_start1 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 1 = 0 := by
  unfold ScatterDims.start
  rw [dif_neg (show (1 : Fin 2) ∉ ([0] : List (Fin 2)) by decide)]

/-- Axis 0 is an inserted window axis: the window coordinate there is `0`. -/
theorem rowScatter_window0 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 0 = 0 := by
  unfold ScatterDims.window
  have h0 : (0 : Fin 2) ∉ (rowScatterDims N E W wf).sKept := by
    simp [Shape.kept, List.mem_filter]
  rw [dif_neg h0]

/-- Axis 1 is the window axis: the window coordinate there is the update's column. -/
theorem rowScatter_window1 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 1 = (j 1).val := by
  unfold ScatterDims.window
  have h1 : (1 : Fin 2) ∈ (rowScatterDims N E W wf).sKept := by
    simp [Shape.kept, List.mem_filter, List.mem_finRange]
  rw [dif_pos h1]
  rfl

/-- An update `(e, c)` lands on `(i, k)` exactly when its index word is `i` as a signed integer and `c = k`. -/
theorem rowScatter_resultIdx_iff {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) (i : Fin N) (k : Fin W) :
    (rowScatterDims N E W wf).resultIdx? j idx = some (ix2 i k)
      ↔ (idx (ix2 (j 0) 0)).toInt = (i.val : ℤ) ∧ j 1 = k := by
  have hs0 := rowScatter_start0 wf idx j
  have hs1 := rowScatter_start1 wf idx j
  have hw0 := rowScatter_window0 wf j
  have hw1 := rowScatter_window1 wf j
  unfold ScatterDims.resultIdx?
  split
  · rename_i hall
    rw [Option.some.injEq]
    constructor
    · intro heq
      have h0 := congrArg Fin.val (congrFun heq 0)
      have h1 := congrArg Fin.val (congrFun heq 1)
      have ha0 := (hall 0).1
      change ((rowScatterDims N E W wf).start j idx 0 + ((rowScatterDims N E W wf).window j 0 : ℤ)).toNat = i.val at h0
      change ((rowScatterDims N E W wf).start j idx 1 + ((rowScatterDims N E W wf).window j 1 : ℤ)).toNat = k.val at h1
      rw [hs0, hw0] at h0 ha0
      rw [hs1, hw1] at h1
      refine ⟨by omega, Fin.ext (by omega)⟩
    · rintro ⟨h0, h1⟩
      funext a
      refine Fin.ext ?_
      match a with
      | ⟨0, _⟩ =>
        show ((rowScatterDims N E W wf).start j idx 0 + ((rowScatterDims N E W wf).window j 0 : ℤ)).toNat = i.val
        rw [hs0, hw0, h0]; omega
      | ⟨1, _⟩ =>
        show ((rowScatterDims N E W wf).start j idx 1 + ((rowScatterDims N E W wf).window j 1 : ℤ)).toNat = k.val
        rw [hs1, hw1, h1]; omega
  · rename_i hnot
    constructor
    · intro heq; cases heq
    · rintro ⟨h0, h1⟩
      exfalso
      apply hnot
      intro a
      match a with
      | ⟨0, _⟩ =>
        show 0 ≤ (rowScatterDims N E W wf).start j idx 0 + ((rowScatterDims N E W wf).window j 0 : ℤ)
          ∧ (rowScatterDims N E W wf).start j idx 0 + ((rowScatterDims N E W wf).window j 0 : ℤ) < (N : ℤ)
        rw [hs0, hw0, h0]
        have := i.isLt
        omega
      | ⟨1, _⟩ =>
        show 0 ≤ (rowScatterDims N E W wf).start j idx 1 + ((rowScatterDims N E W wf).window j 1 : ℤ)
          ∧ (rowScatterDims N E W wf).start j idx 1 + ((rowScatterDims N E W wf).window j 1 : ℤ) < (W : ℤ)
        rw [hs1, hw1, h1]
        have := k.isLt
        omega

/-- The row scatter-add read at `(i, k)`: the operand's entry plus the sum of the updates `(e, k)` over the update rows
    `e` whose index word `idx[e, 0]` is `i` as a signed integer. -/
theorem rowScatterAdd_apply {N E W w : Nat}
    (wf : ScatterDims.WF ⟨2, ![N, W]⟩ ⟨2, ![E, 1]⟩ ⟨2, ![E, W]⟩ [1] [0] [0] 1)
    (x0 : (⟨2, ![N, W]⟩ : Shape).Idx → EReal) (idx : IVec ⟨2, ![E, 1]⟩ w) (upd : (⟨2, ![E, W]⟩ : Shape).Idx → EReal)
    (i : Fin N) (k : Fin W) :
    Ideal.hostScatterAdd (rowScatterDims N E W wf) x0 idx upd (ix2 i k)
      = x0 (ix2 i k) + ∑ e ∈ Finset.univ.filter (fun e : Fin E => (idx (ix2 e 0)).toInt = (i.val : ℤ)), upd (ix2 e k) := by
  unfold Ideal.hostScatterAdd
  congr 1
  have hback : ∀ j : (⟨2, ![E, W]⟩ : Shape).Idx,
      (rowScatterDims N E W wf).resultIdx? j idx = some (ix2 i k) → ix2 (j 0 : Fin E) k = j := by
    intro j hj
    have hk := ((rowScatter_resultIdx_iff wf idx j i k).mp hj).2
    rw [← hk]; exact (eq_ix2 j).symm
  refine Finset.sum_nbij' (fun j => (j 0 : Fin E)) (fun e => ix2 e k) ?_ ?_ ?_ ?_ ?_
  · intro j hj
    exact Finset.mem_filter.mpr ⟨Finset.mem_univ _,
      ((rowScatter_resultIdx_iff wf idx j i k).mp (Finset.mem_filter.mp hj).2).1⟩
  · intro e he
    exact Finset.mem_filter.mpr ⟨Finset.mem_univ _,
      (rowScatter_resultIdx_iff wf idx (ix2 e k) i k).mpr ⟨(Finset.mem_filter.mp he).2, rfl⟩⟩
  · intro j hj
    exact hback j (Finset.mem_filter.mp hj).2
  · intro e _
    rfl
  · intro j hj
    exact congrArg upd (hback j (Finset.mem_filter.mp hj).2).symm

/-- A flat update lands at the signed index word `idx[j 0, 0]`. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate there is `0`. -/
theorem vecScatter_window0 {N E : Nat}
    (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  have h0 : (0 : Fin 1) ∉ (vecScatterDims N E wf).sKept := by
    simp [Shape.kept, List.mem_filter]
  rw [dif_neg h0]

/-- A flat update `e` lands on `i` exactly when its index word is `i` as a signed integer. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ (idx (ix2 (j 0) 0)).toInt = (i.val : ℤ) := by
  have hs0 := vecScatter_start0 wf idx j
  have hw0 := vecScatter_window0 wf j
  unfold ScatterDims.resultIdx?
  split
  · rename_i hall
    rw [Option.some.injEq]
    constructor
    · intro heq
      have h0 := congrArg Fin.val (congrFun heq 0)
      have ha0 := (hall 0).1
      change ((vecScatterDims N E wf).start j idx 0 + ((vecScatterDims N E wf).window j 0 : ℤ)).toNat = i.val at h0
      rw [hs0, hw0] at h0 ha0
      omega
    · intro h0
      funext a
      refine Fin.ext ?_
      obtain rfl : a = 0 := Subsingleton.elim _ _
      show ((vecScatterDims N E wf).start j idx 0 + ((vecScatterDims N E wf).window j 0 : ℤ)).toNat = i.val
      rw [hs0, hw0, h0]; omega
  · rename_i hnot
    constructor
    · intro heq; cases heq
    · intro h0
      exfalso
      apply hnot
      intro a
      obtain rfl : a = 0 := Subsingleton.elim _ _
      show 0 ≤ (vecScatterDims N E wf).start j idx 0 + ((vecScatterDims N E wf).window j 0 : ℤ)
        ∧ (vecScatterDims N E wf).start j idx 0 + ((vecScatterDims N E wf).window j 0 : ℤ) < (N : ℤ)
      rw [hs0, hw0, h0]
      have := i.isLt
      omega

/-- The flat scatter-add read at `i`: the operand's entry plus the sum of the updates `e` whose index word `idx[e, 0]`
    is `i` as a signed integer. -/
theorem vecScatterAdd_apply {N E w : Nat}
    (wf : ScatterDims.WF ⟨1, ![N]⟩ ⟨2, ![E, 1]⟩ ⟨1, ![E]⟩ [] [0] [0] 1)
    (x0 : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x0 idx upd (ix1 i)
      = x0 (ix1 i) + ∑ e ∈ Finset.univ.filter (fun e : Fin E => (idx (ix2 e 0)).toInt = (i.val : ℤ)), upd (ix1 e) := by
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _,
      (vecScatter_resultIdx_iff wf idx j i).mp (Finset.mem_filter.mp hj).2⟩
  · intro e he
    exact Finset.mem_filter.mpr ⟨Finset.mem_univ _,
      (vecScatter_resultIdx_iff wf idx (ix1 e) i).mpr (Finset.mem_filter.mp he).2⟩
  · intro j _
    exact (eq_ix1 j).symm
  · intro e _
    rfl
  · intro j _
    exact congrArg upd (eq_ix1 j)

/-! ## The wrapped index word -/

/-- Where the raw word names a row below `50000`, the word wrapped at `50000` (negative words shifted up by the extent)
    clamps to that same row. -/
theorem clampRow_wrap_of_toInt_eq (b : BitVec 32) (i : Fin 50000) (h : b.toInt = (i.val : ℤ)) :
    clampRow 50000 (by decide) (Scalar.select (IntOp.cmpi .slt b 0#32) (IntOp.addi b 50000#32) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (50000 - 1) = i.val
  rw [h]
  have := i.isLt
  omega

end Idealize.ShloMosaic.RowIndex

end
-- ==== Proof.LibHostRowOps.lean ====
/-
  Host operations around a row-indexed gather or scatter, read at an index.

  The broadcasts that occur around a gather or an accumulating scatter along axis 0, each read at an index: a scalar
  spread over any shape; a vector `[N]` made a column `[N, 1]`; a column `[N, 1]` spread over `[N, W]`; a vector `[W]`
  made a row `[1, W]`; a row `[1, W]` spread over `[N, W]`.  The index words: a count `i < 2^31` written as a 32-bit word
  reads back, signed, as `i`; an index word that names a row `i` of the operand still names it after the usual wrap of
  negative indices (`w < 0 ? w + N : w`) and the gather's clamp.  And the host's accumulating scatters themselves at the
  ideal values: the operand's entry plus the sum of the updates whose index word names that row.
-/
import Idealize.ShloMosaic.Lib.Pipeline.Value
import Idealize.ShloMosaic.Lib.ValueIdx
import Idealize.ShloMosaic.PureOps.Ideal.Laws
import proofs.«141166_j20315195310328_1_alg».proof.Proof.LibRowGatherScatter

noncomputable section

namespace Cert.Bridge.HostRead

open Idealize.ShloMosaic Idealize.ShloMosaic.ValueIdx

variable {α : Type}

/-- A scalar spread over any shape reads the scalar. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry `(e, 0)` is entry `e`. -/
theorem bcast_col_apply {N : Nat} (hN : N ≠ 1) (h : (⟨1, ![N]⟩ : Shape).BroadcastsInDim ⟨2, ![N, 1]⟩ ![0])
    (x : (⟨1, ![N]⟩ : Shape).Idx → α) (e : Fin N) (z : Fin 1) :
    broadcastInDim ⟨2, ![N, 1]⟩ ![0] h x (ix2 e z) = x (ix1 e) :=
  broadcastInDim_apply _ h x _ (ix1 e) (fun a => match a with
    | ⟨0, _⟩ => by show e.val = if N = 1 then 0 else e.val; rw [if_neg hN])

/-- A column spread over the lanes: entry `(e, k)` is entry `(e, 0)`. -/
theorem bcast_row_apply {N W : Nat} (hN : N ≠ 1) (h : (⟨2, ![N, 1]⟩ : Shape).BroadcastsInDim ⟨2, ![N, W]⟩ ![0, 1])
    (x : (⟨2, ![N, 1]⟩ : Shape).Idx → α) (e : Fin N) (k : Fin W) :
    broadcastInDim ⟨2, ![N, W]⟩ ![0, 1] h x (ix2 e k) = x (ix2 e 0) :=
  broadcastInDim_apply _ h x _ (ix2 e 0) (fun a => match a with
    | ⟨0, _⟩ => by show e.val = if N = 1 then 0 else e.val; rw [if_neg hN]
    | ⟨1, _⟩ => by show 0 = if (1 : Nat) = 1 then 0 else k.val; rw [if_pos rfl])

/-- A vector made a row: entry `(0, k)` is entry `k`. -/
theorem bcast_lane_apply {W : Nat} (hW : W ≠ 1) (h : (⟨1, ![W]⟩ : Shape).BroadcastsInDim ⟨2, ![1, W]⟩ ![1])
    (x : (⟨1, ![W]⟩ : Shape).Idx → α) (z : Fin 1) (k : Fin W) :
    broadcastInDim ⟨2, ![1, W]⟩ ![1] h x (ix2 z k) = x (ix1 k) :=
  broadcastInDim_apply _ h x _ (ix1 k) (fun a => match a with
    | ⟨0, _⟩ => by show k.val = if W = 1 then 0 else k.val; rw [if_neg hW])

/-- A row spread over the rows: entry `(e, k)` is entry `(0, k)`. -/
theorem bcast_rows_apply {N W : Nat} (hW : W ≠ 1) (h : (⟨2, ![1, W]⟩ : Shape).BroadcastsInDim ⟨2, ![N, W]⟩ ![0, 1])
    (x : (⟨2, ![1, W]⟩ : Shape).Idx → α) (e : Fin N) (k : Fin W) :
    broadcastInDim ⟨2, ![N, W]⟩ ![0, 1] h x (ix2 e k) = x (ix2 0 k) :=
  broadcastInDim_apply _ h x _ (ix2 0 k) (fun a => match a with
    | ⟨0, _⟩ => by show 0 = if (1 : Nat) = 1 then 0 else e.val; rw [if_pos rfl]
    | ⟨1, _⟩ => by show k.val = if W = 1 then 0 else k.val; rw [if_neg hW])

/-- A count below `2^31` written as a 32-bit word reads back, signed, as itself. -/
theorem toInt_ofNat_small (n : Nat) (h : n < 2147483648) : (BitVec.ofNat 32 n).toInt = (n : ℤ) := by
  have h1 : (BitVec.ofNat 32 n).toNat = n := by rw [BitVec.toNat_ofNat]; omega
  rw [BitVec.toInt_eq_toNat_cond, h1]
  split <;> omega

/-- Where the raw word names a row below `100000`, the word wrapped at `100000` (negative words shifted up by the
    extent) clamps to that same row. -/
theorem clampRow_wrap_of_toInt_eq (b : BitVec 32) (i : Fin 100000) (h : b.toInt = (i.val : ℤ)) :
    RowIndex.clampRow 100000 (by decide) (Scalar.select (IntOp.cmpi .slt b 0#32) (IntOp.addi b 100000#32) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (100000 - 1) = i.val
  rw [h]
  have := i.isLt
  omega

/-- Where the raw word names a row below the extent `N`, the word wrapped at any shift (negative words shifted up)
    clamps to that same row: a word that names a row is not negative, so the wrap leaves it alone. -/
theorem clampRow_wrap_of_toInt_eq' {N : Nat} (hN : 0 < N) (b shift : BitVec 32) (i : Fin N) (h : b.toInt = (i.val : ℤ)) :
    RowIndex.clampRow N hN (Scalar.select (IntOp.cmpi .slt b 0#32) (IntOp.addi b shift) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (N - 1) = i.val
  rw [h]
  have := i.isLt
  omega

/-- The flat accumulating scatter at entry `i`. -/
theorem hostScatterAdd_vec {N E w : Nat} (wf : ScatterDims.WF ⟨1, ![N]⟩ ⟨2, ![E, 1]⟩ ⟨1, ![E]⟩ [] [0] [0] 1)
    (x0 : FVec Ideal ⟨1, ![N]⟩ .f32) (idx : IVec ⟨2, ![E, 1]⟩ w) (upd : FVec Ideal ⟨1, ![E]⟩ .f32) (i : Fin N) :
    Host.scatterAdd (RowIndex.vecScatterDims N E wf) x0 idx upd (ix1 i)
      = x0 (ix1 i) + ∑ e ∈ Finset.univ.filter (fun e : Fin E => (idx (ix2 e 0)).toInt = (i.val : ℤ)), upd (ix1 e) :=
  RowIndex.vecScatterAdd_apply wf x0 idx upd i

/-- The row accumulating scatter at entry `(i, k)`. -/
theorem hostScatterAdd_row {N E W w : Nat} (wf : ScatterDims.WF ⟨2, ![N, W]⟩ ⟨2, ![E, 1]⟩ ⟨2, ![E, W]⟩ [1] [0] [0] 1)
    (x0 : FVec Ideal ⟨2, ![N, W]⟩ .f32) (idx : IVec ⟨2, ![E, 1]⟩ w) (upd : FVec Ideal ⟨2, ![E, W]⟩ .f32) (i : Fin N) (k : Fin W) :
    Host.scatterAdd (RowIndex.rowScatterDims N E W wf) x0 idx upd (ix2 i k)
      = x0 (ix2 i k) + ∑ e ∈ Finset.univ.filter (fun e : Fin E => (idx (ix2 e 0)).toInt = (i.val : ℤ)), upd (ix2 e k) :=
  RowIndex.rowScatterAdd_apply wf x0 idx upd i k

end Cert.Bridge.HostRead

end
-- ==== Proof.KernelAgg.lean ====
/- Gather and accumulating scatter of rows act column by column.

   A gather of rows and an accumulating scatter of rows act on every column separately: entry (r, k) of the scattered array
   is the sum, over the edges whose destination word names row r, of the source row's entry in column k (the source word
   wrapped and clamped as the gather does), from the zero the scatter starts at. Putting two matrices side by side,
   gathering and scattering once, and slicing the halves apart again therefore gives, entry by entry, the two separate
   neighbour sums. -/
import proofs.«141166_j20315195310328_1_alg».proof.Proof.Gen.KernelIdeal
import proofs.«141166_j20315195310328_1_alg».proof.Proof.RefStages
import proofs.«141166_j20315195310328_1_alg».proof.Proof.LibMatRead
import proofs.«141166_j20315195310328_1_alg».proof.Proof.LibHostRowOps

noncomputable section

namespace Cert.KernelIdeal.Prelude

open Cert.KernelIdeal Cert.KernelIdeal.Gen Idealize.ShloMosaic Idealize.ShloMosaic.ValueIdx Idealize.ShloMosaic.RowIndex
open scoped BigOperators

/-- The sum over the edges whose destination word names node r of a per-node quantity at the edge's source node, from
    the zero the scatter starts at. -/
def edgeSum (y : Fin 100000 → EReal) (s d : IVec S640000 32) (r : Fin 100000) : EReal :=
  Ideal.ofBits .f32 0x00000000#32
    + ∑ e ∈ Finset.univ.filter (fun e : Fin 640000 =>
        (Cert.ReferenceIdeal.Stages.asCol d (ix2 e (0 : Fin 1))).toInt = (r.val : ℤ)),
      y (clampRow 100000 (by decide) (Cert.ReferenceIdeal.Stages.wrapCol s (ix2 e (0 : Fin 1))))

/-- The reference's neighbour sum of a feature matrix, at (r, k). -/
theorem aggBig_at (y : FVec Ideal S100000x128 .f32) (s d : IVec S640000 32) (r : Fin 100000) (k : Fin 128) :
    Cert.ReferenceIdeal.Stages.aggBig y s d (ix2 r k) = edgeSum (fun n => y (ix2 n k)) s d r := by
  unfold Cert.ReferenceIdeal.Stages.aggBig Cert.ReferenceIdeal.Stages.splatBig edgeSum
  refine (Cert.Bridge.HostRead.hostScatterAdd_row (N := 100000) (E := 640000) (W := 128)
    Cert.ReferenceIdeal.scatter_S100000x128_S640000x1_S640000x128_1_0_0_1.wf _ _ _ r k).trans ?_
  refine congr (congrArg _ ?_) (Finset.sum_congr rfl fun e _ => ?_)
  · exact (Cert.Bridge.HostRead.bcast_scalar_apply _ _ _ _).trans (constant_apply _ _)
  · exact rowGather_apply (N := 100000) (E := 640000) (W := 128) (by decide)
      Cert.ReferenceIdeal.gather_S100000x128_S640000x1_S640000x128_1_0_n_n_0_1_1128.wf y _ e k

/-- The kernel's wide neighbour sum: both matrices side by side through one gather and one scatter. -/
def aggWide (yin yout : FVec Ideal S100000x128 .f32) (s d : IVec S640000 32) : FVec Ideal S100000x256 .f32 :=
  Host.scatterAdd scatter_S100000x256_S640000x1_S640000x256_1_0_0_1
    (broadcastInDim S100000x256 ![] bcast_S_S100000x256 (constant (F := Ideal) S_ .f32 0x00000000#32))
    (Cert.ReferenceIdeal.Stages.asCol d)
    (Host.gather gather_S100000x256_S640000x1_S640000x256_1_0_n_n_0_1_1256
      (concatenate S100000x256 1 [⟨S100000x128, yin⟩, ⟨S100000x128, yout⟩] concatenates_S100000x128_S100000x128_S100000x256_d1)
      (Cert.ReferenceIdeal.Stages.wrapCol s))

/-- The wide sum at (r, c): the edge sum of the side-by-side matrix's column c. -/
theorem aggWide_at (yin yout : FVec Ideal S100000x128 .f32) (s d : IVec S640000 32) (r : Fin 100000) (c : Fin 256) :
    aggWide yin yout s d (ix2 r c)
      = edgeSum (fun n => concatenate S100000x256 1 [⟨S100000x128, yin⟩, ⟨S100000x128, yout⟩]
          concatenates_S100000x128_S100000x128_S100000x256_d1 (ix2 n c)) s d r := by
  unfold aggWide edgeSum
  refine (Cert.Bridge.HostRead.hostScatterAdd_row (N := 100000) (E := 640000) (W := 256)
    scatter_S100000x256_S640000x1_S640000x256_1_0_0_1.wf _ _ _ r c).trans ?_
  refine congr (congrArg _ ?_) (Finset.sum_congr rfl fun e _ => ?_)
  · exact (Cert.Bridge.HostRead.bcast_scalar_apply _ _ _ _).trans (constant_apply _ _)
  · exact rowGather_apply (N := 100000) (E := 640000) (W := 256) (by decide)
      gather_S100000x256_S640000x1_S640000x256_1_0_n_n_0_1_1256.wf _ _ e c

/-- The left half of the wide sum is the neighbour sum of the left matrix. -/
theorem wide_left (yin yout : FVec Ideal S100000x128 .f32) (s d : IVec S640000 32) (r : Fin 100000) (k : Fin 128) :
    extractStridedSlice S100000x128 ![0, 0] (aggWide yin yout s d) slices_S100000x256_S100000x128_0_0 (ix2 r k)
      = Cert.ReferenceIdeal.Stages.aggBig yin s d (ix2 r k) := by
  have hk := k.isLt
  refine (Cert.Lib.MatRead.sliceCols_read 0 (aggWide yin yout s d) slices_S100000x256_S100000x128_0_0 r k
    ⟨k.val, by omega⟩ (by simp)).trans ?_
  rw [aggWide_at, aggBig_at]
  refine congrArg (fun y => edgeSum y s d r) (funext fun n => ?_)
  exact Cert.Lib.MatRead.concatCols_left yin yout concatenates_S100000x128_S100000x128_S100000x256_d1 n k ⟨k.val, by omega⟩ rfl

/-- The right half is the neighbour sum of the right matrix. -/
theorem wide_right (yin yout : FVec Ideal S100000x128 .f32) (s d : IVec S640000 32) (r : Fin 100000) (k : Fin 128) :
    extractStridedSlice S100000x128 ![0, 128] (aggWide yin yout s d) slices_S100000x256_S100000x128_0_128 (ix2 r k)
      = Cert.ReferenceIdeal.Stages.aggBig yout s d (ix2 r k) := by
  have hk := k.isLt
  refine (Cert.Lib.MatRead.sliceCols_read 128 (aggWide yin yout s d) slices_S100000x256_S100000x128_0_128 r k
    ⟨k.val + 128, by omega⟩ (by simp; omega)).trans ?_
  rw [aggWide_at, aggBig_at]
  refine congrArg (fun y => edgeSum y s d r) (funext fun n => ?_)
  exact Cert.Lib.MatRead.concatCols_right yin yout concatenates_S100000x128_S100000x128_S100000x256_d1 n k ⟨k.val + 128, by omega⟩ rfl

end Cert.KernelIdeal.Prelude

end
-- ==== Proof.KernelPrelude.lean ====
/- The arrays the kernel's host operations prepare for the region, against the reference's stages.

   Before the region the kernel's program computes the inverse square-root degree exactly as the reference does, and the
   two neighbour sums at once, on the two scaled feature matrices put side by side. Read off the program's host
   operations, the first is the reference's inverse square-root degree, and the other two are the two halves of the wide
   neighbour sum: entry by entry, the reference's two neighbour sums. -/
import proofs.«141166_j20315195310328_1_alg».proof.Proof.Gen.KernelIdeal.Frame
import proofs.«141166_j20315195310328_1_alg».proof.Proof.KernelAgg
import Idealize.ShloMosaic.Lib.StableHlo.Run

noncomputable section

namespace Cert.KernelIdeal.Prelude

open Cert.KernelIdeal Cert.KernelIdeal.Gen Idealize.ShloMosaic Idealize.ShloMosaic.TcCoe Idealize.SL.Sem
  Idealize.ShloMosaic.StableHlo Idealize.ShloMosaic.ValueIdx
open scoped BigOperators

variable (m : (ℓ : Loc nD τ sig) → Buf (Elt Ideal) ℓ)

/-- The edge lists and the inverse square-root degree, as the reference's stages of the launch contents. -/
abbrev srcs (c : Dev nD) : IVec S640000 32 := Cert.ReferenceIdeal.Stages.srcOf (m ((c : Thread nD τ).loc main_arg3))
abbrev dsts (c : Dev nD) : IVec S640000 32 := Cert.ReferenceIdeal.Stages.dstOf (m ((c : Thread nD τ).loc main_arg3))
abbrev invs (c : Dev nD) : FVec Ideal S100000x1 .f32 :=
  Cert.ReferenceIdeal.Stages.invSqrtDeg (m ((c : Thread nD τ).loc main_arg2)) (srcs m c) (dsts m c)

set_option maxRecDepth 65536 in
set_option maxHeartbeats 16000000 in
/-- The inverse square-root degree the region finds is the reference's stage. -/
theorem v35_eq (c : Dev nD) : (V m c main_v35 : S100000x1.Idx → EReal) = invs m c := by
  dsimp only [V]
  after_results_simp
  rfl

set_option maxRecDepth 65536 in
set_option maxHeartbeats 16000000 in
/-- The first neighbour-sum array the region finds is the left half of the wide sum, so entry by entry it is the
    reference's neighbour sum of the first scaled matrix. -/
theorem v57_at (c : Dev nD) (r : Fin 100000) (k : Fin 128) :
    (V m c main_v57 : S100000x128.Idx → EReal) (ix2 r k)
      = Cert.ReferenceIdeal.Stages.aggBig (Cert.ReferenceIdeal.Stages.scaledIn (m ((c : Thread nD τ).loc main_arg2))
          (m ((c : Thread nD τ).loc main_arg0)) (invs m c)) (srcs m c) (dsts m c) (ix2 r k) := by
  dsimp only [V]
  after_results_simp
  show extractStridedSlice S100000x128 ![0, 0] (aggWide _ _ _ _) slices_S100000x256_S100000x128_0_0 (ix2 r k) = _
  rw [wide_left]
  after_results_simp
  rfl

set_option maxRecDepth 65536 in
set_option maxHeartbeats 16000000 in
/-- The second is the right half: the reference's neighbour sum of the second scaled matrix. -/
theorem v58_at (c : Dev nD) (r : Fin 100000) (k : Fin 128) :
    (V m c main_v58 : S100000x128.Idx → EReal) (ix2 r k)
      = Cert.ReferenceIdeal.Stages.aggBig (Cert.ReferenceIdeal.Stages.scaledOut (m ((c : Thread nD τ).loc main_arg2))
          (m ((c : Thread nD τ).loc main_arg0)) (invs m c)) (srcs m c) (dsts m c) (ix2 r k) := by
  dsimp only [V]
  after_results_simp
  show extractStridedSlice S100000x128 ![0, 128] (aggWide _ _ _ _) slices_S100000x256_S100000x128_0_128 (ix2 r k) = _
  rw [wide_right]
  after_results_simp
  rfl

end Cert.KernelIdeal.Prelude

end
-- ==== Proof.KernelArr.lean ====
/- Each window's array, by name.

   Window w of the call stages one array of the program; which one is decided by the call's table of windows. The arrays'
   contents as the region finds them are the same under either name of the array: equal references give equal contents. -/
import proofs.«141166_j20315195310328_1_alg».proof.Proof.Gen.KernelIdeal.Frame
import Idealize.ShloMosaic.PureOps.Ideal

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- Equal references have equal contents (across the two references' buffer types). -/
theorem V_congr (c : Dev nD) {b b' : Ref sig .tc} (h : b = b') : HEq (V m c b) (V m c b') := by
  subst h; exact HEq.rfl

theorem arr0 : Pipeline.arrRef spec0 0 = main_arg0 := rfl
theorem Varr0 (c : Dev nD) : V m c (Pipeline.arrRef spec0 0) = V m c main_arg0 := eq_of_heq (V_congr m c arr0)

theorem arr1 : Pipeline.arrRef spec0 1 = main_arg1 := rfl
theorem Varr1 (c : Dev nD) : V m c (Pipeline.arrRef spec0 1) = V m c main_arg1 := eq_of_heq (V_congr m c arr1)

theorem arr2 : Pipeline.arrRef spec0 2 = main_arg2 := rfl
theorem Varr2 (c : Dev nD) : V m c (Pipeline.arrRef spec0 2) = V m c main_arg2 := eq_of_heq (V_congr m c arr2)

theorem arr3 : Pipeline.arrRef spec0 3 = main_v35 := rfl
theorem Varr3 (c : Dev nD) : V m c (Pipeline.arrRef spec0 3) = V m c main_v35 := eq_of_heq (V_congr m c arr3)

theorem arr4 : Pipeline.arrRef spec0 4 = main_v57 := rfl
theorem Varr4 (c : Dev nD) : V m c (Pipeline.arrRef spec0 4) = V m c main_v57 := eq_of_heq (V_congr m c arr4)

theorem arr5 : Pipeline.arrRef spec0 5 = main_v58 := rfl
theorem Varr5 (c : Dev nD) : V m c (Pipeline.arrRef spec0 5) = V m c main_v58 := eq_of_heq (V_congr m c arr5)

theorem arr6 : Pipeline.arrRef spec0 6 = main_arg4 := rfl
theorem Varr6 (c : Dev nD) : V m c (Pipeline.arrRef spec0 6) = V m c main_arg4 := eq_of_heq (V_congr m c arr6)

theorem arr7 : Pipeline.arrRef spec0 7 = main_arg5 := rfl
theorem Varr7 (c : Dev nD) : V m c (Pipeline.arrRef spec0 7) = V m c main_arg5 := eq_of_heq (V_congr m c arr7)

theorem arr8 : Pipeline.arrRef spec0 8 = main_arg6 := rfl
theorem Varr8 (c : Dev nD) : V m c (Pipeline.arrRef spec0 8) = V m c main_arg6 := eq_of_heq (V_congr m c arr8)

theorem arr9 : Pipeline.arrRef spec0 9 = main_arg7 := rfl
theorem Varr9 (c : Dev nD) : V m c (Pipeline.arrRef spec0 9) = V m c main_arg7 := eq_of_heq (V_congr m c arr9)

theorem arr10 : Pipeline.arrRef spec0 10 = main_arg8 := rfl
theorem Varr10 (c : Dev nD) : V m c (Pipeline.arrRef spec0 10) = V m c main_arg8 := eq_of_heq (V_congr m c arr10)

theorem arr11 : Pipeline.arrRef spec0 11 = main_arg9 := rfl
theorem Varr11 (c : Dev nD) : V m c (Pipeline.arrRef spec0 11) = V m c main_arg9 := eq_of_heq (V_congr m c arr11)

theorem arr12 : Pipeline.arrRef spec0 12 = main_arg10 := rfl
theorem Varr12 (c : Dev nD) : V m c (Pipeline.arrRef spec0 12) = V m c main_arg10 := eq_of_heq (V_congr m c arr12)

theorem arr13 : Pipeline.arrRef spec0 13 = main_arg11 := rfl
theorem Varr13 (c : Dev nD) : V m c (Pipeline.arrRef spec0 13) = V m c main_arg11 := eq_of_heq (V_congr m c arr13)

theorem arr14 : Pipeline.arrRef spec0 14 = main_arg12 := rfl
theorem Varr14 (c : Dev nD) : V m c (Pipeline.arrRef spec0 14) = V m c main_arg12 := eq_of_heq (V_congr m c arr14)

theorem arr15 : Pipeline.arrRef spec0 15 = main_arg13 := rfl
theorem Varr15 (c : Dev nD) : V m c (Pipeline.arrRef spec0 15) = V m c main_arg13 := eq_of_heq (V_congr m c arr15)

theorem arr16 : Pipeline.arrRef spec0 16 = main_arg14 := rfl
theorem Varr16 (c : Dev nD) : V m c (Pipeline.arrRef spec0 16) = V m c main_arg14 := eq_of_heq (V_congr m c arr16)

theorem arr17 : Pipeline.arrRef spec0 17 = main_arg15 := rfl
theorem Varr17 (c : Dev nD) : V m c (Pipeline.arrRef spec0 17) = V m c main_arg15 := eq_of_heq (V_congr m c arr17)

theorem arr18 : Pipeline.arrRef spec0 18 = main_arg16 := rfl
theorem Varr18 (c : Dev nD) : V m c (Pipeline.arrRef spec0 18) = V m c main_arg16 := eq_of_heq (V_congr m c arr18)

theorem arr19 : Pipeline.arrRef spec0 19 = main_arg17 := rfl
theorem Varr19 (c : Dev nD) : V m c (Pipeline.arrRef spec0 19) = V m c main_arg17 := eq_of_heq (V_congr m c arr19)

theorem arr20 : Pipeline.arrRef spec0 20 = main_arg18 := rfl
theorem Varr20 (c : Dev nD) : V m c (Pipeline.arrRef spec0 20) = V m c main_arg18 := eq_of_heq (V_congr m c arr20)

theorem arr21 : Pipeline.arrRef spec0 21 = main_arg19 := rfl
theorem Varr21 (c : Dev nD) : V m c (Pipeline.arrRef spec0 21) = V m c main_arg19 := eq_of_heq (V_congr m c arr21)

end Cert.KernelIdeal.Blocks

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«141166_j20315195310328_1_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.RefRow.lean ====
/- The reference's stages read at one entry.

   Entry (i, j) of each whole-array stage depends only on node i's rows: a dense layer is the row times the weight matrix
   plus the bias, the unit acts entrywise (the cube is written in the other order, equal by commutativity of the product),
   a host reduction along the features is the initial value, zero, plus the sum along the row, the library variance's
   divisor is the width (the correction count is zero and the guard is true because the width is positive), and the
   quotient by the square root is the product with the reciprocal square root because the variance plus epsilon is
   positive. So the layer at (i, j) is Cell.cell of node i's rows, its indicator, its inverse square-root degree and
   its two rows of neighbour sums. -/
import proofs.«141166_j20315195310328_1_alg».proof.Proof.RefStages
import proofs.«141166_j20315195310328_1_alg».proof.Proof.Cell
import proofs.«141166_j20315195310328_1_alg».proof.Proof.LibMatProd
import proofs.«141166_j20315195310328_1_alg».proof.Proof.LibHostMatRead
import Idealize.ShloMosaic.Lib.ValueIdx
import Idealize.ShloMosaic.Lib.Pipeline.Value

noncomputable section

namespace Cert.ReferenceIdeal.Row

open Cert.ReferenceIdeal Cert.ReferenceIdeal.Gen Cert.ReferenceIdeal.Stages Idealize.ShloMosaic Idealize.ShloMosaic.ValueIdx
open scoped BigOperators

abbrev rowOf (X : Big) (i : Fin 100000) : Cert.Cell.Row := fun t => X (ix2 i t)
abbrev matOf (W : Wt) : Cert.Cell.Mat := fun t j => W (ix2 t j)
abbrev vecOf (b : Bias) : Cert.Cell.Row := fun j => b (ix1 j)

/-! ## Spreads -/

theorem splatBig_at (w : BitVec 32) (j : S100000x128.Idx) : splatBig w j = Ideal.ofBits .f32 w :=
  Cert.Lib.HostMatRead.splat_read bcast_S_S100000x128 _ j

theorem splatCol_at (w : BitVec 32) (j : S100000x1.Idx) : splatCol w j = Ideal.ofBits .f32 w :=
  Cert.Lib.HostMatRead.splat_read bcast_S_S100000x1 _ j

theorem rowsOf_at (b : Bias) (i : Fin 100000) (j : Fin 128) : rowsOf b (ix2 i j) = b (ix1 j) :=
  Cert.Lib.HostMatRead.rowBcast_read b bcast_S128_S1x128_1 bcast_S1x128_S100000x128_0_1 i j

theorem overFeatures_at (x : Col) (i : Fin 100000) (j : Fin 128) : overFeatures x (ix2 i j) = x (ix2 i (0 : Fin 1)) :=
  Cert.Lib.HostMatRead.colRepeat_read x bcast_S100000x1_S100000x128_0_1 i j

/-! ## Perceptrons -/

theorem dense_at (X : Big) (W : Wt) (b : Bias) (i : Fin 100000) (j : Fin 128) :
    dense X W b (ix2 i j) = Cert.Cell.dense (rowOf X i) (matOf W) (vecOf b) j := by
  unfold dense
  rw [addf_apply, rowsOf_at]
  exact congrArg (· + b (ix1 j)) (Cert.Lib.MatProd.dotGeneral_read none _ X W i j)

theorem hostTanh_at (v : Big) (j : S100000x128.Idx) : Host.tanh v j = Ideal.tanh (v j) := rfl

theorem gelu_at (Z : Big) (j : S100000x128.Idx) : gelu Z j = Cert.Cell.gelu (Z j) := by
  unfold gelu Cert.Cell.gelu
  simp only [mulf_apply, addf_apply, splatBig_at, hostTanh_at]
  rw [mul_comm (Z j * Z j) (Z j)]
  rfl

theorem mlp_at (X : Big) (W1 : Wt) (b1 : Bias) (W2 : Wt) (b2 : Bias) (i : Fin 100000) (j : Fin 128) :
    mlp X W1 b1 W2 b2 (ix2 i j) = Cert.Cell.mlp (rowOf X i) (matOf W1) (vecOf b1) (matOf W2) (vecOf b2) j := by
  unfold mlp Cert.Cell.mlp
  rw [dense_at]
  refine congrArg (fun r => Cert.Cell.dense r (matOf W2) (vecOf b2) j) ?_
  funext t
  show gelu (dense X W1 b1) (ix2 i t) = _
  rw [gelu_at, dense_at]

/-! ## Row statistics -/

theorem rowSumCol_at (Z : Big) (i : Fin 100000) (u : Fin 1) : rowSumCol Z (ix2 i u) = ∑ t : Fin 128, Z (ix2 i t) := by
  unfold rowSumCol
  rw [Cert.Lib.HostMatRead.col_read _ bcast_S100000_S100000x1_0 i u,
    Cert.Lib.HostMatRead.rowSum_read Z _ reducesTo_S100000x128_S100000_d1 (by decide) h_S_ i, constant_apply,
    Ideal.ofBits_zero_f32, zero_add]

theorem meanCol_at (Z : Big) (i : Fin 100000) (u : Fin 1) : meanCol Z (ix2 i u) = Cert.Cell.mean (rowOf Z i) := by
  unfold meanCol Cert.Cell.mean
  show Ideal.div (rowSumCol Z (ix2 i u)) (splatCol 0x43000000#32 (ix2 i u)) = _
  rw [rowSumCol_at, splatCol_at]
  rfl

theorem centred_at (Z : Big) (i : Fin 100000) (j : Fin 128) :
    centred Z (ix2 i j) = Z (ix2 i j) - Cert.Cell.mean (rowOf Z i) := by
  unfold centred
  rw [subf_apply, overFeatures_at, meanCol_at]

/-- The width minus a zero count is the width. -/
theorem countS_eq : countS ix0 = Cert.Cell.cWidth := by
  unfold countS Cert.Cell.cWidth
  show Ideal.ofBits .f32 0x43000000#32 - (((0#32 : BitVec 32).toInt : ℝ) : EReal) = _
  simp

/-- The guard of the library variance is true: the width is positive. -/
theorem guard_true : cmpf .ogt countS (constant (F := Ideal) S_ .f32 0x00000000#32) ix0 = 1#1 := by
  show Ideal.cmp .ogt (countS ix0) (Ideal.ofBits .f32 0x00000000#32) = 1#1
  rw [countS_eq, Ideal.ofBits_zero_f32, Cert.Cell.cWidth_eq]
  unfold Ideal.cmp
  have h : (0 : EReal) < ((128 : ℝ) : EReal) := by exact_mod_cast (by norm_num : (0 : ℝ) < 128)
  simp [h]

theorem varCol_at (Z : Big) (i : Fin 100000) (u : Fin 1) : varCol Z (ix2 i u) = Cert.Cell.var (rowOf Z i) := by
  unfold varCol
  rw [select_apply, Cert.Lib.HostMatRead.splat_read bcast_S_S100000x1 _ (ix2 i u), guard_true]
  show varRaw Z (ix2 i u) = _
  unfold varRaw Cert.Cell.var
  show Ideal.div (rowSumCol (mulf (centred Z) (centred Z)) (ix2 i u))
    (broadcastInDim S100000x1 ![] bcast_S_S100000x1 countS (ix2 i u)) = _
  rw [rowSumCol_at, Cert.Lib.HostMatRead.splat_read bcast_S_S100000x1 _ (ix2 i u), countS_eq]
  refine congrArg (fun s => Ideal.div s Cert.Cell.cWidth) (Finset.sum_congr rfl fun t _ => ?_)
  rw [mulf_apply, centred_at]

theorem layerNorm_at (Z : Big) (g b : Bias) (i : Fin 100000) (j : Fin 128) :
    layerNorm Z g b (ix2 i j) = Cert.Cell.ln (rowOf Z i) (vecOf g) (vecOf b) j := by
  rw [← Cert.Cell.lnHost_eq]
  unfold layerNorm Cert.Cell.lnHost
  rw [addf_apply, mulf_apply, rowsOf_at, rowsOf_at]
  show Ideal.div (subf Z (overFeatures (meanCol Z)) (ix2 i j))
      (overFeatures (Host.sqrt (addf (varCol Z) (splatCol 0x3727C5AC#32))) (ix2 i j)) * g (ix1 j) + b (ix1 j) = _
  rw [subf_apply, overFeatures_at, overFeatures_at, meanCol_at]
  show Ideal.div _ (Ideal.sqrt (varCol Z (ix2 i 0) + splatCol 0x3727C5AC#32 (ix2 i 0))) * _ + _ = _
  rw [varCol_at, splatCol_at]
  rfl

theorem branch_at (X : Big) (W1 : Wt) (b1 : Bias) (W2 : Wt) (b2 g be : Bias) (i : Fin 100000) (j : Fin 128) :
    branch X W1 b1 W2 b2 g be (ix2 i j)
      = Cert.Cell.ln (Cert.Cell.mlp (rowOf X i) (matOf W1) (vecOf b1) (matOf W2) (vecOf b2)) (vecOf g) (vecOf be) j := by
  unfold branch
  rw [layerNorm_at]
  refine congrArg (fun r => Cert.Cell.ln r (vecOf g) (vecOf be) j) ?_
  funext t
  exact mlp_at X W1 b1 W2 b2 i t

/-! ## The mixed row and the layer -/

theorem mixed_at (ind inv : Col) (ina outa rate : Big) (i : Fin 100000) (j : Fin 128) :
    mixed ind inv ina outa rate (ix2 i j)
      = Cert.Cell.mix (rowOf rate i) (ind (ix2 i (0 : Fin 1))) (inv (ix2 i (0 : Fin 1))) (rowOf ina i) (rowOf outa i) j := by
  unfold mixed Cert.Cell.mix Stages.interior
  simp only [addf_apply, mulf_apply, subf_apply, overFeatures_at, splatCol_at]
  rfl

/-- The layer at (i, j): one node's update from that node's rows. -/
theorem layer_at (xt x0 : Big) (ind : Col) (ei : IVec S2x640000 32)
    (Wr1 : Wt) (br1 : Bias) (Wr2 : Wt) (br2 gr ber : Bias) (Wg1 : Wt) (bg1 : Bias) (Wg2 : Wt) (bg2 gg beg : Bias)
    (Wf1 : Wt) (bf1 : Bias) (Wf2 : Wt) (bf2 : Bias) (i : Fin 100000) (j : Fin 128) :
    layer xt x0 ind ei Wr1 br1 Wr2 br2 gr ber Wg1 bg1 Wg2 bg2 gg beg Wf1 bf1 Wf2 bf2 (ix2 i j)
      = Cert.Cell.cell (rowOf xt i) (rowOf x0 i) (ind (ix2 i (0 : Fin 1)))
          (invSqrtDeg ind (srcOf ei) (dstOf ei) (ix2 i (0 : Fin 1)))
          (rowOf (aggBig (scaledIn ind xt (invSqrtDeg ind (srcOf ei) (dstOf ei))) (srcOf ei) (dstOf ei)) i)
          (rowOf (aggBig (scaledOut ind xt (invSqrtDeg ind (srcOf ei) (dstOf ei))) (srcOf ei) (dstOf ei)) i)
          (matOf Wr1) (vecOf br1) (matOf Wr2) (vecOf br2) (vecOf gr) (vecOf ber)
          (matOf Wg1) (vecOf bg1) (matOf Wg2) (vecOf bg2) (vecOf gg) (vecOf beg)
          (matOf Wf1) (vecOf bf1) (matOf Wf2) (vecOf bf2) j := by
  unfold layer Cert.Cell.cell
  rw [addf_apply, mlp_at, branch_at]
  refine congrArg (fun r => Cert.Cell.mlp r (matOf Wf1) (vecOf bf1) (matOf Wf2) (vecOf bf2) j + _) ?_
  funext t
  show mixed _ _ _ _ _ (ix2 i t) = _
  rw [mixed_at]
  refine congrArg (fun r => Cert.Cell.mix r _ _ _ _ t) ?_
  funext s
  exact branch_at xt Wr1 br1 Wr2 br2 gr ber i s

end Cert.ReferenceIdeal.Row

end
-- ==== Proof.RefKeptA.lean ====
/- No operation of the reference writes an argument array: each argument ends as it was launched. -/
import proofs.«141166_j20315195310328_1_alg».proof.Proof.RefRun
import Idealize.ShloMosaic.PureOps.Ideal

noncomputable section

namespace Cert.ReferenceIdeal.Kept

open Cert.ReferenceIdeal Cert.ReferenceIdeal.Gen Cert.ReferenceIdeal.RefRun Idealize.ShloMosaic Idealize.ShloMosaic.TcCoe
  Idealize.SL.Sem Idealize.ShloMosaic.StableHlo

set_option maxRecDepth 65536 in
set_option maxHeartbeats 16000000 in
theorem arg0 (V : Valuation τ sig (Elt Ideal)) :
    after (ops (F := Ideal)) V (main_arg0 : DevRef τ sig) = V (main_arg0 : DevRef τ sig) := by
  unfold ops
  rw [after_append, after_append, after_append]
  after_results_simp <;> rfl

set_option maxRecDepth 65536 in
set_option maxHeartbeats 16000000 in
theorem arg1 (V : Valuation τ sig (Elt Ideal)) :
    after (ops (F := Ideal)) V (main_arg1 : DevRef τ sig) = V (main_arg1 : DevRef τ sig) := by
  unfold ops
  rw [after_append, after_append, after_append]
  after_results_simp <;> rfl

set_option maxRecDepth 65536 in
set_option maxHeartbeats 16000000 in
theorem arg2 (V : Valuation τ sig (Elt Ideal)) :
    after (ops (F := Ideal)) V (main_arg2 : DevRef τ sig) = V (main_arg2 : DevRef τ sig) := by
  unfold ops
  rw [after_append, after_append, after_append]
  after_results_simp <;> rfl

set_option maxRecDepth 65536 in
set_option maxHeartbeats 16000000 in
theorem arg3 (V : Valuation τ sig (Elt Ideal)) :
    after (ops (F := Ideal)) V (main_arg3 : DevRef τ sig) = V (main_arg3 : DevRef τ sig) := by
  unfold ops
  rw [after_append, after_append, after_append]
  after_results_simp <;> rfl

set_option maxRecDepth 65536 in
set_option maxHeartbeats 16000000 in
theorem arg4 (V : Valuation τ sig (Elt Ideal)) :
    after (ops (F := Ideal)) V (main_arg4 : DevRef τ sig) = V (main_arg4 : DevRef τ sig) := by
  unfold ops
  rw [after_append, after_append, after_append]
  after_results_simp <;> rfl

end Cert.ReferenceIdeal.Kept

end
-- ==== Proof.RefKeptB.lean ====
/- No operation of the reference writes an argument array: each argument ends as it was launched. -/
import proofs.«141166_j20315195310328_1_alg».proof.Proof.RefRun
import Idealize.ShloMosaic.PureOps.Ideal

noncomputable section

namespace Cert.ReferenceIdeal.Kept

open Cert.ReferenceIdeal Cert.ReferenceIdeal.Gen Cert.ReferenceIdeal.RefRun Idealize.ShloMosaic Idealize.ShloMosaic.TcCoe
  Idealize.SL.Sem Idealize.ShloMosaic.StableHlo

set_option maxRecDepth 65536 in
set_option maxHeartbeats 16000000 in
theorem arg5 (V : Valuation τ sig (Elt Ideal)) :
    after (ops (F := Ideal)) V (main_arg5 : DevRef τ sig) = V (main_arg5 : DevRef τ sig) := by
  unfold ops
  rw [after_append, after_append, after_append]
  after_results_simp <;> rfl

set_option maxRecDepth 65536 in
set_option maxHeartbeats 16000000 in
theorem arg6 (V : Valuation τ sig (Elt Ideal)) :
    after (ops (F := Ideal)) V (main_arg6 : DevRef τ sig) = V (main_arg6 : DevRef τ sig) := by
  unfold ops
  rw [after_append, after_append, after_append]
  after_results_simp <;> rfl

set_option maxRecDepth 65536 in
set_option maxHeartbeats 16000000 in
theorem arg7 (V : Valuation τ sig (Elt Ideal)) :
    after (ops (F := Ideal)) V (main_arg7 : DevRef τ sig) = V (main_arg7 : DevRef τ sig) := by
  unfold ops
  rw [after_append, after_append, after_append]
  after_results_simp <;> rfl

set_option maxRecDepth 65536 in
set_option maxHeartbeats 16000000 in
theorem arg8 (V : Valuation τ sig (Elt Ideal)) :
    after (ops (F := Ideal)) V (main_arg8 : DevRef τ sig) = V (main_arg8 : DevRef τ sig) := by
  unfold ops
  rw [after_append, after_append, after_append]
  after_results_simp <;> rfl

set_option maxRecDepth 65536 in
set_option maxHeartbeats 16000000 in
theorem arg9 (V : Valuation τ sig (Elt Ideal)) :
    after (ops (F := Ideal)) V (main_arg9 : DevRef τ sig) = V (main_arg9 : DevRef τ sig) := by
  unfold ops
  rw [after_append, after_append, after_append]
  after_results_simp <;> rfl

end Cert.ReferenceIdeal.Kept

end
-- ==== Proof.RefKeptC.lean ====
/- No operation of the reference writes an argument array: each argument ends as it was launched. -/
import proofs.«141166_j20315195310328_1_alg».proof.Proof.RefRun
import Idealize.ShloMosaic.PureOps.Ideal

noncomputable section

namespace Cert.ReferenceIdeal.Kept

open Cert.ReferenceIdeal Cert.ReferenceIdeal.Gen Cert.ReferenceIdeal.RefRun Idealize.ShloMosaic Idealize.ShloMosaic.TcCoe
  Idealize.SL.Sem Idealize.ShloMosaic.StableHlo

set_option maxRecDepth 65536 in
set_option maxHeartbeats 16000000 in
theorem arg10 (V : Valuation τ sig (Elt Ideal)) :
    after (ops (F := Ideal)) V (main_arg10 : DevRef τ sig) = V (main_arg10 : DevRef τ sig) := by
  unfold ops
  rw [after_append, after_append, after_append]
  after_results_simp <;> rfl

set_option maxRecDepth 65536 in
set_option maxHeartbeats 16000000 in
theorem arg11 (V : Valuation τ sig (Elt Ideal)) :
    after (ops (F := Ideal)) V (main_arg11 : DevRef τ sig) = V (main_arg11 : DevRef τ sig) := by
  unfold ops
  rw [after_append, after_append, after_append]
  after_results_simp <;> rfl

set_option maxRecDepth 65536 in
set_option maxHeartbeats 16000000 in
theorem arg12 (V : Valuation τ sig (Elt Ideal)) :
    after (ops (F := Ideal)) V (main_arg12 : DevRef τ sig) = V (main_arg12 : DevRef τ sig) := by
  unfold ops
  rw [after_append, after_append, after_append]
  after_results_simp <;> rfl

set_option maxRecDepth 65536 in
set_option maxHeartbeats 16000000 in
theorem arg13 (V : Valuation τ sig (Elt Ideal)) :
    after (ops (F := Ideal)) V (main_arg13 : DevRef τ sig) = V (main_arg13 : DevRef τ sig) := by
  unfold ops
  rw [after_append, after_append, after_append]
  after_results_simp <;> rfl

set_option maxRecDepth 65536 in
set_option maxHeartbeats 16000000 in
theorem arg14 (V : Valuation τ sig (Elt Ideal)) :
    after (ops (F := Ideal)) V (main_arg14 : DevRef τ sig) = V (main_arg14 : DevRef τ sig) := by
  unfold ops
  rw [after_append, after_append, after_append]
  after_results_simp <;> rfl

end Cert.ReferenceIdeal.Kept

end
-- ==== Proof.RefKeptD.lean ====
/- No operation of the reference writes an argument array: each argument ends as it was launched. -/
import proofs.«141166_j20315195310328_1_alg».proof.Proof.RefRun
import Idealize.ShloMosaic.PureOps.Ideal

noncomputable section

namespace Cert.ReferenceIdeal.Kept

open Cert.ReferenceIdeal Cert.ReferenceIdeal.Gen Cert.ReferenceIdeal.RefRun Idealize.ShloMosaic Idealize.ShloMosaic.TcCoe
  Idealize.SL.Sem Idealize.ShloMosaic.StableHlo

set_option maxRecDepth 65536 in
set_option maxHeartbeats 16000000 in
theorem arg15 (V : Valuation τ sig (Elt Ideal)) :
    after (ops (F := Ideal)) V (main_arg15 : DevRef τ sig) = V (main_arg15 : DevRef τ sig) := by
  unfold ops
  rw [after_append, after_append, after_append]
  after_results_simp <;> rfl

set_option maxRecDepth 65536 in
set_option maxHeartbeats 16000000 in
theorem arg16 (V : Valuation τ sig (Elt Ideal)) :
    after (ops (F := Ideal)) V (main_arg16 : DevRef τ sig) = V (main_arg16 : DevRef τ sig) := by
  unfold ops
  rw [after_append, after_append, after_append]
  after_results_simp <;> rfl

set_option maxRecDepth 65536 in
set_option maxHeartbeats 16000000 in
theorem arg17 (V : Valuation τ sig (Elt Ideal)) :
    after (ops (F := Ideal)) V (main_arg17 : DevRef τ sig) = V (main_arg17 : DevRef τ sig) := by
  unfold ops
  rw [after_append, after_append, after_append]
  after_results_simp <;> rfl

set_option maxRecDepth 65536 in
set_option maxHeartbeats 16000000 in
theorem arg18 (V : Valuation τ sig (Elt Ideal)) :
    after (ops (F := Ideal)) V (main_arg18 : DevRef τ sig) = V (main_arg18 : DevRef τ sig) := by
  unfold ops
  rw [after_append, after_append, after_append]
  after_results_simp <;> rfl

set_option maxRecDepth 65536 in
set_option maxHeartbeats 16000000 in
theorem arg19 (V : Valuation τ sig (Elt Ideal)) :
    after (ops (F := Ideal)) V (main_arg19 : DevRef τ sig) = V (main_arg19 : DevRef τ sig) := by
  unfold ops
  rw [after_append, after_append, after_append]
  after_results_simp <;> rfl

end Cert.ReferenceIdeal.Kept

end
-- ==== Proof.RefValue.lean ====
/- The reference's run, read: every weakly fair execution terminates with the result buffer at the layer of the launch
   contents of the argument arrays, and every argument array as it was launched. -/
import proofs.«141166_j20315195310328_1_alg».proof.Proof.RefStages
import proofs.«141166_j20315195310328_1_alg».proof.Proof.RefKeptA
import proofs.«141166_j20315195310328_1_alg».proof.Proof.RefKeptB
import proofs.«141166_j20315195310328_1_alg».proof.Proof.RefKeptC
import proofs.«141166_j20315195310328_1_alg».proof.Proof.RefKeptD

noncomputable section

namespace Cert.ReferenceIdeal.Read

open Cert.ReferenceIdeal Cert.ReferenceIdeal.Gen Cert.ReferenceIdeal.RefRun Cert.ReferenceIdeal.Stages Idealize.ShloMosaic
  Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v173)
        = layer (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v173).trans (result_eq _),
      (h c main_arg0).trans (Cert.ReferenceIdeal.Kept.arg0 _),
      (h c main_arg1).trans (Cert.ReferenceIdeal.Kept.arg1 _),
      (h c main_arg2).trans (Cert.ReferenceIdeal.Kept.arg2 _),
      (h c main_arg3).trans (Cert.ReferenceIdeal.Kept.arg3 _),
      (h c main_arg4).trans (Cert.ReferenceIdeal.Kept.arg4 _),
      (h c main_arg5).trans (Cert.ReferenceIdeal.Kept.arg5 _),
      (h c main_arg6).trans (Cert.ReferenceIdeal.Kept.arg6 _),
      (h c main_arg7).trans (Cert.ReferenceIdeal.Kept.arg7 _),
      (h c main_arg8).trans (Cert.ReferenceIdeal.Kept.arg8 _),
      (h c main_arg9).trans (Cert.ReferenceIdeal.Kept.arg9 _),
      (h c main_arg10).trans (Cert.ReferenceIdeal.Kept.arg10 _),
      (h c main_arg11).trans (Cert.ReferenceIdeal.Kept.arg11 _),
      (h c main_arg12).trans (Cert.ReferenceIdeal.Kept.arg12 _),
      (h c main_arg13).trans (Cert.ReferenceIdeal.Kept.arg13 _),
      (h c main_arg14).trans (Cert.ReferenceIdeal.Kept.arg14 _),
      (h c main_arg15).trans (Cert.ReferenceIdeal.Kept.arg15 _),
      (h c main_arg16).trans (Cert.ReferenceIdeal.Kept.arg16 _),
      (h c main_arg17).trans (Cert.ReferenceIdeal.Kept.arg17 _),
      (h c main_arg18).trans (Cert.ReferenceIdeal.Kept.arg18 _),
      (h c main_arg19).trans (Cert.ReferenceIdeal.Kept.arg19 _)⟩)
    (run_main (F := Ideal) m ρ)

end Cert.ReferenceIdeal.Read

end
-- ==== Proof.lean ====
/- One layer of a boundary-aware graph network, fused kernel against plain reference, on the extended reals.

   Both programs compute, for each of 100000 nodes, the same update from the node's own rows: two perceptron branches
   with row normalisation, the inverse square-root degree, two sums over incoming edges of scaled source features, a
   mixed row, and an output perceptron plus the second branch. They differ in three places, none of which changes the
   value at the ideal instance: the kernel normalises with the reciprocal square root where the reference divides by
   the square root (equal because the variance plus epsilon is positive); the kernel's cube is z·(z·z) where the
   reference's is (z·z)·z; and the kernel's program forms the two neighbour sums at once on a side-by-side matrix, where
   the reference forms them separately (equal because gather and accumulating scatter of rows act column by column).
   The kernel's 50 grid points write 50 disjoint blocks of 2000 nodes that tile the result. No finiteness is used. -/
import proofs.«141166_j20315195310328_1_alg».proof.Defs
import proofs.«141166_j20315195310328_1_alg».proof.Proof.Gen.Kernel
import proofs.«141166_j20315195310328_1_alg».proof.Proof.Gen.Kernel.Skeleton
import proofs.«141166_j20315195310328_1_alg».proof.Proof.Gen.Kernel.Launch
import proofs.«141166_j20315195310328_1_alg».proof.Proof.Gen.Kernel.Points
import proofs.«141166_j20315195310328_1_alg».proof.Proof.Gen.Kernel.Frame
import proofs.«141166_j20315195310328_1_alg».proof.Proof.Gen.KernelIdeal
import proofs.«141166_j20315195310328_1_alg».proof.Proof.Gen.KernelIdeal.Skeleton
import proofs.«141166_j20315195310328_1_alg».proof.Proof.Gen.KernelIdeal.Launch
import proofs.«141166_j20315195310328_1_alg».proof.Proof.Gen.KernelIdeal.Points
import proofs.«141166_j20315195310328_1_alg».proof.Proof.Gen.KernelIdeal.Frame
import proofs.«141166_j20315195310328_1_alg».proof.Proof.Gen.ReferenceIdeal
import proofs.«141166_j20315195310328_1_alg».proof.Proof.Gen.Pre_finite_inputs
import proofs.«141166_j20315195310328_1_alg».proof.Proof.KernelBlocks
import proofs.«141166_j20315195310328_1_alg».proof.Proof.KernelPrelude
import proofs.«141166_j20315195310328_1_alg».proof.Proof.KernelArr
import proofs.«141166_j20315195310328_1_alg».proof.Proof.RefRow
import proofs.«141166_j20315195310328_1_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Read.run m ρ)

theorem preserves : Cert.preserves_Kernel_KernelIdeal := trivial

set_option maxHeartbeats 8000000 in
/-- The reference's layer of the kernel's argument arrays is, entry by entry, the array the kernel's blocks tile: at a
    node, both are the one-node update of that node's rows, the kernel's prepared arrays being the reference's stages. -/
theorem layer_eq (m : (ℓ : Loc Cert.KernelIdeal.nD Cert.KernelIdeal.τ Cert.KernelIdeal.sig) → Buf (Elt Ideal) ℓ)
    (c : Dev Cert.KernelIdeal.nD) :
    Cert.ReferenceIdeal.Stages.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      = Cert.KernelIdeal.Blocks.G m c := by
  funext i
  obtain ⟨r, q, rfl⟩ : ∃ (r : Fin 100000) (q : Fin 128), i = ix2 r q := ⟨i 0, i 1, eq_ix2 i⟩
  rw [Cert.ReferenceIdeal.Row.layer_at, Cert.KernelIdeal.Blocks.G_ix2]
  unfold Cert.KernelIdeal.Blocks.nodeCell
  have e0 := (Cert.KernelIdeal.Blocks.Varr0 m c).trans (Cert.KernelIdeal.Gen.V_main_arg0 m c)
  have e1 := (Cert.KernelIdeal.Blocks.Varr1 m c).trans (Cert.KernelIdeal.Gen.V_main_arg1 m c)
  have e2 := (Cert.KernelIdeal.Blocks.Varr2 m c).trans (Cert.KernelIdeal.Gen.V_main_arg2 m c)
  have e6 := (Cert.KernelIdeal.Blocks.Varr6 m c).trans (Cert.KernelIdeal.Gen.V_main_arg4 m c)
  have e7 := (Cert.KernelIdeal.Blocks.Varr7 m c).trans (Cert.KernelIdeal.Gen.V_main_arg5 m c)
  have e8 := (Cert.KernelIdeal.Blocks.Varr8 m c).trans (Cert.KernelIdeal.Gen.V_main_arg6 m c)
  have e9 := (Cert.KernelIdeal.Blocks.Varr9 m c).trans (Cert.KernelIdeal.Gen.V_main_arg7 m c)
  have e10 := (Cert.KernelIdeal.Blocks.Varr10 m c).trans (Cert.KernelIdeal.Gen.V_main_arg8 m c)
  have e11 := (Cert.KernelIdeal.Blocks.Varr11 m c).trans (Cert.KernelIdeal.Gen.V_main_arg9 m c)
  have e12 := (Cert.KernelIdeal.Blocks.Varr12 m c).trans (Cert.KernelIdeal.Gen.V_main_arg10 m c)
  have e13 := (Cert.KernelIdeal.Blocks.Varr13 m c).trans (Cert.KernelIdeal.Gen.V_main_arg11 m c)
  have e14 := (Cert.KernelIdeal.Blocks.Varr14 m c).trans (Cert.KernelIdeal.Gen.V_main_arg12 m c)
  have e15 := (Cert.KernelIdeal.Blocks.Varr15 m c).trans (Cert.KernelIdeal.Gen.V_main_arg13 m c)
  have e16 := (Cert.KernelIdeal.Blocks.Varr16 m c).trans (Cert.KernelIdeal.Gen.V_main_arg14 m c)
  have e17 := (Cert.KernelIdeal.Blocks.Varr17 m c).trans (Cert.KernelIdeal.Gen.V_main_arg15 m c)
  have e18 := (Cert.KernelIdeal.Blocks.Varr18 m c).trans (Cert.KernelIdeal.Gen.V_main_arg16 m c)
  have e19 := (Cert.KernelIdeal.Blocks.Varr19 m c).trans (Cert.KernelIdeal.Gen.V_main_arg17 m c)
  have e20 := (Cert.KernelIdeal.Blocks.Varr20 m c).trans (Cert.KernelIdeal.Gen.V_main_arg18 m c)
  have e21 := (Cert.KernelIdeal.Blocks.Varr21 m c).trans (Cert.KernelIdeal.Gen.V_main_arg19 m c)
  have e3 := (Cert.KernelIdeal.Blocks.Varr3 m c).trans (Cert.KernelIdeal.Prelude.v35_eq m c)
  have e4 : ∀ k : Fin 128, _ = _ := fun k =>
    (congrFun (Cert.KernelIdeal.Blocks.Varr4 m c) (ix2 r k)).trans (Cert.KernelIdeal.Prelude.v57_at m c r k)
  have e5 : ∀ k : Fin 128, _ = _ := fun k =>
    (congrFun (Cert.KernelIdeal.Blocks.Varr5 m c) (ix2 r k)).trans (Cert.KernelIdeal.Prelude.v58_at m c r k)
  exact Cert.KernelIdeal.Blocks.cell_congr q
    (funext fun (k : Fin 128) => (congrFun e0 _).symm)
    (funext fun (k : Fin 128) => (congrFun e1 _).symm)
    (congrFun e2 _).symm
    (congrFun e3 _).symm
    (funext fun (k : Fin 128) => (e4 k).symm)
    (funext fun (k : Fin 128) => (e5 k).symm)
    (funext fun (a : Fin 128) => funext fun (b : Fin 128) => (congrFun e6 _).symm)
    (funext fun (k : Fin 128) => (congrFun e7 _).symm)
    (funext fun (a : Fin 128) => funext fun (b : Fin 128) => (congrFun e8 _).symm)
    (funext fun (k : Fin 128) => (congrFun e9 _).symm)
    (funext fun (k : Fin 128) => (congrFun e10 _).symm)
    (funext fun (k : Fin 128) => (congrFun e11 _).symm)
    (funext fun (a : Fin 128) => funext fun (b : Fin 128) => (congrFun e12 _).symm)
    (funext fun (k : Fin 128) => (congrFun e13 _).symm)
    (funext fun (a : Fin 128) => funext fun (b : Fin 128) => (congrFun e14 _).symm)
    (funext fun (k : Fin 128) => (congrFun e15 _).symm)
    (funext fun (k : Fin 128) => (congrFun e16 _).symm)
    (funext fun (k : Fin 128) => (congrFun e17 _).symm)
    (funext fun (a : Fin 128) => funext fun (b : Fin 128) => (congrFun e18 _).symm)
    (funext fun (k : Fin 128) => (congrFun e19 _).symm)
    (funext fun (a : Fin 128) => funext fun (b : Fin 128) => (congrFun e20 _).symm)
    (funext fun (k : Fin 128) => (congrFun e21 _).symm)

theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Read.run m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  exact layer_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
